-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S256x256 : Shape := ⟨2, ![256, 256]⟩
abbrev S256 : Shape := ⟨1, ![256]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S8x4096x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S8x4096x256 : Shape := ⟨3, ![8, 4096, 256]⟩
abbrev S256x256 : Shape := ⟨2, ![256, 256]⟩
abbrev S256 : Shape := ⟨1, ![256]⟩
abbrev S1x4096x256 : Shape := ⟨3, ![1, 4096, 256]⟩
abbrev S1x512x256 : Shape := ⟨3, ![1, 512, 256]⟩
abbrev S4096x256 : Shape := ⟨2, ![4096, 256]⟩
abbrev S1x256 : Shape := ⟨2, ![1, 256]⟩
abbrev S512x256 : Shape := ⟨2, ![512, 256]⟩
abbrev S512x4096 : Shape := ⟨2, ![512, 4096]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S8x4096x256, .f32⟩
  | .local _ .vmem, ⟨0, _⟩ => ⟨S1x4096x256, .f32⟩
  | .local _ .vmem, ⟨1, _⟩ => ⟨S1x4096x256, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S1x512x256, .f32⟩
  | .local _ .vmem, ⟨9, _⟩ => ⟨S1x512x256, .f32⟩
  | .local _ .vmem, ⟨10, _⟩ => ⟨S4096x256, .bf16⟩
  | .local _ .vmem, ⟨11, _⟩ => ⟨S4096x256, .bf16⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  h_S1x512x256 : 0 < S1x512x256.numel
  shapeCasts_S1x512x256_S512x256 : S1x512x256.ShapeCasts S512x256
  broadcasts_S1x256_S512x256 : S1x256.Broadcasts S512x256
  reduces_S512x4096_S512 : S512x4096.Reduces [1] S512
  shapeCasts_S512_S512x1 : S512.ShapeCasts S512x1
  broadcasts_S512x1_S512x4096 : S512x1.Broadcasts S512x4096
  broadcasts_S512x1_S512x256 : S512x1.Broadcasts S512x256
  inb_S1x512x256_S1x512x256_0_0_0 : ∀ a, (![0, 0, 0] : Fin 3 → Nat) a + S1x512x256.size a ≤ S1x512x256.size a
  shapeCasts_S512x256_S1x512x256 : S512x256.ShapeCasts S1x512x256
  dot_S4096x256_S256x256_S4096x256_1_1_0_0_n_n_wf : DotDims.WF S4096x256 S256x256 S4096x256 [1] [1] [0] [0] [] []
  dot_S512x256_S256x256_S512x256_1_1_0_0_n_n_wf : DotDims.WF S512x256 S256x256 S512x256 [1] [1] [0] [0] [] []
  dot_S512x256_S4096x256_S512x4096_1_1_0_0_n_n_wf : DotDims.WF S512x256 S4096x256 S512x4096 [1] [1] [0] [0] [] []
  dot_S512x4096_S4096x256_S512x256_1_0_0_1_n_n_wf : DotDims.WF S512x4096 S4096x256 S512x256 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x256.size a ≤ S1x4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S8x4096x256.size a
  hwx0_0 : ∀ i : grid0.Coords, EltTy.bits .f32 = 32 ∨ (Rect.block (s := S8x4096x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x256.size a ≤ S8x4096x256.size a
  hwx0_7 : ∀ i : grid0.Coords, EltTy.bits .f32 = 32 ∨ (Rect.block (s := S8x4096x256) S1x512x256.size (cc0_transform_7 i) (hinb0_7 i)).WholeWords (EltTy.packing .f32)

variable [Facts₀]

def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf
def dot_S512x256_S256x256_S512x256_1_1_0_0_n_n : DotDims S512x256 S256x256 S512x256 where
  lhsContracting := [1]
  rhsContracting := [1]
  lhsNonContracting := [0]
  rhsNonContracting := [0]
  lhsBatch := []
  rhsBatch := []
  wf := dot_S512x256_S256x256_S512x256_1_1_0_0_n_n_wf
def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x4096x256 : Shape := ⟨3, ![8, 4096, 256]⟩
abbrev S256x256 : Shape := ⟨2, ![256, 256]⟩
abbrev S256 : Shape := ⟨1, ![256]⟩
abbrev S1x1x256 : Shape := ⟨3, ![1, 1, 256]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S8x4096x256, .f32⟩
  | .hbm, ⟨8, _⟩ => ⟨S1x1x256, .f32⟩
  | .hbm, ⟨9, _⟩ => ⟨S8x4096x256, .f32⟩
  | .hbm, ⟨10, _⟩ => ⟨S8x4096x256, .f32⟩
  | .hbm, ⟨11, _⟩ => ⟨S8x4096x256, .f32⟩
  | .hbm, ⟨12, _⟩ => ⟨S1x1x256, .f32⟩
  | .hbm, ⟨13, _⟩ => ⟨S8x4096x256, .f32⟩
  | .hbm, ⟨14, _⟩ => ⟨S8x4096x256, .f32⟩
  | .hbm, ⟨15, _⟩ => ⟨S8x4096x256, .f32⟩
  | .hbm, ⟨16, _⟩ => ⟨S1x1x256, .f32⟩
  | .hbm, ⟨17, _⟩ => ⟨S8x4096x256, .f32⟩
  | .hbm, ⟨18, _⟩ => ⟨S8x4096x256, .f32⟩
  | .hbm, ⟨19, _⟩ => ⟨S8x4096x4096, .f32⟩
  | .hbm, ⟨20, _⟩ => ⟨S_, .f32⟩
  | .hbm, ⟨21, _⟩ => ⟨S8x4096x4096, .f32⟩
  | .hbm, ⟨22, _⟩ => ⟨S8x4096x4096, .f32⟩
  | .hbm, ⟨23, _⟩ => ⟨S_, .f32⟩
  | .hbm, ⟨24, _⟩ => ⟨S8x4096, .f32⟩
  | .hbm, ⟨25, _⟩ => ⟨S_, .f32⟩
  | .hbm, ⟨26, _⟩ => ⟨S8x4096, .f32⟩
  | .hbm, ⟨27, _⟩ => ⟨S8x4096, .f32⟩
  | .hbm, ⟨28, _⟩ => ⟨S8x4096x1, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S8x4096x4096, .f32⟩
  | .hbm, ⟨36, _⟩ => ⟨S8x4096x4096, .f32⟩
  | .hbm, ⟨37, _⟩ => ⟨S8x4096x256, .f32⟩
  | .hbm, ⟨38, _⟩ => ⟨S8x4096x256, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x4096x256_0_1_2 : S1x1x256.BroadcastsInDim S8x4096x256 (![0, 1, 2] : Fin 3 → Fin S8x4096x256.rank)
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  dot_S8x4096x256_S256x256_S8x4096x256_2_1_01_0_n_n_wf : DotDims.WF S8x4096x256 S256x256 S8x4096x256 [2] [1] [0, 1] [0] [] []
  dot_S8x4096x256_S8x4096x256_S8x4096x4096_2_2_1_1_0_0_wf : DotDims.WF S8x4096x256 S8x4096x256 S8x4096x4096 [2] [2] [1] [1] [0] [0]
  dot_S8x4096x4096_S8x4096x256_S8x4096x256_2_1_1_2_0_0_wf : DotDims.WF S8x4096x4096 S8x4096x256 S8x4096x256 [2] [1] [1] [2] [0] [0]

variable [Facts₀]

def dot_S8x4096x256_S256x256_S8x4096x256_2_1_01_0_n_n : DotDims S8x4096x256 S256x256 S8x4096x256 where
  lhsContracting := [2]
  rhsContracting := [1]
  lhsNonContracting := [0, 1]
  rhsNonContracting := [0]
  lhsBatch := []
  rhsBatch := []
  wf := dot_S8x4096x256_S256x256_S8x4096x256_2_1_01_0_n_n_wf
def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf
def dot_S8x4096x4096_S8x4096x256_S8x4096x256_2_1_1_2_0_0 : DotDims S8x4096x4096 S8x4096x256 S8x4096x256 where
  lhsContracting := [2]
  rhsContracting := [1]
  lhsNonContracting := [1]
  rhsNonContracting := [2]
  lhsBatch := [0]
  rhsBatch := [0]
  wf := dot_S8x4096x4096_S8x4096x256_S8x4096x256_2_1_1_2_0_0_wf

class Facts : Prop extends Facts₀ where

variable [Facts]
-- ==== Proof.Attention.lean ====
/-
  Single-head attention with a residual, index by index over the extended reals, in the two
  arrangements the two programs compute it in.

  With q = x Wqᵀ + bq, k = x Wkᵀ + bk, v = x Wvᵀ + bv (one batch at a time) and c = 1/16 = 1/√256:

  * the softmax arrangement: scores (q·k) c, their row maximum m, e = exp (score − m), the weights
    e / Σ e, and the result x + Σ_j weight_j v_j;
  * the deferred arrangement: the scale is folded into the query, scores (q c)·k, and the
    normalisation is applied once to the weighted sum: (Σ_j e_j v_j) / (Σ_j e_j) + x.

  The two agree on finite inputs (Proof/AttentionLaw.lean).
-/
import Idealize.ShloMosaic.PureOps.Ideal
import Idealize.ShloMosaic.Lib.ValueIdx

noncomputable section

namespace Cert.Attention

open Idealize.ShloMosaic Idealize.ShloMosaic.ValueIdx

/-- The activations' shape [batch, sequence, feature], a weight's [out, in] and a bias's [out]. -/
abbrev SX : Shape := ⟨3, ![8, 4096, 256]⟩
abbrev SW : Shape := ⟨2, ![256, 256]⟩
abbrev SB : Shape := ⟨1, ![256]⟩

/-- The scale 1/16, and the values the two reductions start from (−∞ for the maximum, 0 for the sum),
    as the bit patterns both programs spell them with. -/
abbrev scale : EReal := Ideal.ofBits .f32 0x3D800000#32
abbrev negInf : EReal := Ideal.ofBits .f32 0xFF800000#32
abbrev zero : EReal := Ideal.ofBits .f32 0x00000000#32

/-- One entry of a linear layer x Wᵀ + b: row `s` of batch `bt`, output feature `e`. -/
def lin (X : SX.Idx → EReal) (W : SW.Idx → EReal) (b : SB.Idx → EReal) (bt : Fin 8) (s : Fin 4096) (e : Fin 256) : EReal :=
  (∑ d : Fin 256, X (ix3 bt s d) * W (ix2 e d)) + b (ix1 e)

section Row

variable {ι δ : Type} [Fintype ι] [Fintype δ]

/-- One output entry in the deferred arrangement, from a query row `q`, the keys `k`, one column
    `v` of the values and the residual entry `x`. -/
def rowDeferred (q : δ → EReal) (k : ι → δ → EReal) (v : ι → EReal) (x : EReal) : EReal :=
  Ideal.div
    (∑ j, Ideal.exp ((∑ d, (q d * scale) * k j d) - Finset.univ.fold max negInf (fun j' => ∑ d, (q d * scale) * k j' d)) * v j)
    (∑ j, Ideal.exp ((∑ d, (q d * scale) * k j d) - Finset.univ.fold max negInf (fun j' => ∑ d, (q d * scale) * k j' d)))
    + x

/-- The same entry in the softmax arrangement. -/
def rowSoftmax (q : δ → EReal) (k : ι → δ → EReal) (v : ι → EReal) (x : EReal) : EReal :=
  x + ∑ j, Ideal.div
      (Ideal.exp ((∑ d, q d * k j d) * scale
        - max negInf (Finset.univ.fold max negInf (fun j' => (∑ d, q d * k j' d) * scale))))
      (zero + ∑ j'', Ideal.exp ((∑ d, q d * k j'' d) * scale
        - max negInf (Finset.univ.fold max negInf (fun j' => (∑ d, q d * k j' d) * scale))))
    * v j

end Row

section Arrays

variable (X : SX.Idx → EReal) (Wq : SW.Idx → EReal) (bq : SB.Idx → EReal) (Wk : SW.Idx → EReal) (bk : SB.Idx → EReal)
  (Wv : SW.Idx → EReal) (bv : SB.Idx → EReal)

/-- The whole result in the deferred arrangement, at batch `bt`, row `s`, feature `e`. -/
def outDeferred (bt : Fin 8) (s : Fin 4096) (e : Fin 256) : EReal :=
  rowDeferred (fun d : Fin 256 => lin X Wq bq bt s d) (fun (j : Fin 4096) (d : Fin 256) => lin X Wk bk bt j d)
    (fun j : Fin 4096 => lin X Wv bv bt j e) (X (ix3 bt s e))

/-- The whole result in the softmax arrangement. -/
def outSoftmax (bt : Fin 8) (s : Fin 4096) (e : Fin 256) : EReal :=
  rowSoftmax (fun d : Fin 256 => lin X Wq bq bt s d) (fun (j : Fin 4096) (d : Fin 256) => lin X Wk bk bt j d)
    (fun j : Fin 4096 => lin X Wv bv bt j e) (X (ix3 bt s e))

end Arrays

end Cert.Attention

end
-- ==== Proof.AttentionLaw.lean ====
/-
  The two arrangements of single-head attention agree on finite inputs.

  Everything is reduced to real arithmetic: on real inputs every score is a real, the row maximum of
  finitely many reals (at least one) is a real, the exponentials are positive reals, so their sum is a
  nonzero real and dividing by it is multiplying by its reciprocal.  What is left is the identity
  (Σ_j p_j v_j) · (1/L) + x = x + Σ_j (p_j · (1/L)) v_j over the reals.
-/
import proofs.«107308_j35098472743342_2_alg».proof.Proof.Attention

noncomputable section

namespace Cert.Attention

open Idealize.ShloMosaic Idealize.ShloMosaic.ValueIdx

/-! ### The three bit patterns -/

/-- The pattern of −∞ is the bottom element. -/
theorem negInf_eq : negInf = (⊥ : EReal) := by
  simp [Ideal.ofBits, Ideal.ieee]

/-- The pattern of +0 is zero. -/
theorem zero_eq : zero = (0 : EReal) := by
  simp [Ideal.ofBits, Ideal.ieee]

/-- The pattern 0x3D800000 is the real 2⁻⁴, one sixteenth. -/
theorem scale_eq : scale = (((1 : ℝ) / 16 : ℝ) : EReal) := by
  simp [Ideal.ofBits, Ideal.ieee, -EReal.coe_mul]; norm_num

/-! ### Reusable facts about casts of reals into the extended reals -/

section General

/-- The cast of a finite sum of reals is the sum of the casts. -/
theorem coe_finset_sum {α : Type} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The maximum of finitely many reals, at least one of them, started from −∞, is a real. -/
theorem fold_max_bot_coe {α : Type} (s : Finset α) (hs : s.Nonempty) (f : α → ℝ) :
    ∃ M : ℝ, s.fold max (⊥ : EReal) (fun a => (f a : EReal)) = (M : EReal) := by
  induction hs using Finset.Nonempty.cons_induction with
  | singleton a => exact ⟨f a, by simp⟩
  | cons a s ha hs ih =>
    obtain ⟨M, hM⟩ := ih
    exact ⟨max (f a) M, by rw [Finset.fold_cons, hM]; exact (EReal.coe_strictMono.monotone.map_max).symm⟩

variable {ι δ : Type} [Fintype ι] [Fintype δ]

/-- A score with the scale folded into the query: Σ_d (q_d c) k_d = (Σ_d q_d k_d) c, a real. -/
theorem scores_deferred (q kj : δ → ℝ) (c : ℝ) :
    (∑ d, ((q d : EReal) * (c : EReal)) * (kj d : EReal)) = (((∑ d, q d * kj d) * c : ℝ) : EReal) := by
  simp only [← EReal.coe_mul, ← coe_finset_sum]
  congr 1
  rw [Finset.sum_mul]
  exact Finset.sum_congr rfl (fun d _ => by ring)

/-- A score scaled after the contraction: (Σ_d q_d k_d) c, a real. -/
theorem scores_softmax (q kj : δ → ℝ) (c : ℝ) :
    (∑ d, (q d : EReal) * (kj d : EReal)) * (c : EReal) = (((∑ d, q d * kj d) * c : ℝ) : EReal) := by
  simp only [← EReal.coe_mul, ← coe_finset_sum]

/-- Normalising once after the weighted sum, or every weight before it: with positive real weights
    p the two agree, and the residual may be added on either side. -/
theorem div_sum_eq_sum_div [Nonempty ι] (p : ι → ℝ) (hp : ∀ j, 0 < p j) (v : ι → ℝ) (x : ℝ) :
    Ideal.div (∑ j, (p j : EReal) * (v j : EReal)) (∑ j, (p j : EReal)) + (x : EReal)
      = (x : EReal) + ∑ j, Ideal.div (p j : EReal) (∑ j', (p j' : EReal)) * (v j : EReal) := by
  have hL : (∑ j, p j) ≠ 0 := (Finset.sum_pos (fun j _ => hp j) Finset.univ_nonempty).ne'
  simp only [← EReal.coe_mul, ← coe_finset_sum, Ideal.div_coe hL, ← EReal.coe_add]
  congr 1
  rw [Finset.sum_mul, add_comm]
  congr 1
  exact Finset.sum_congr rfl (fun j _ => by ring)

/-- The two arrangements on real scores S: subtract the row maximum, exponentiate, and either
    normalise the weighted sum once or normalise every weight. -/
theorem softmax_core [Nonempty ι] (S v : ι → ℝ) (x : ℝ) :
    Ideal.div
        (∑ j, Ideal.exp ((S j : EReal) - Finset.univ.fold max (⊥ : EReal) (fun j' => (S j' : EReal))) * (v j : EReal))
        (∑ j, Ideal.exp ((S j : EReal) - Finset.univ.fold max (⊥ : EReal) (fun j' => (S j' : EReal))))
      + (x : EReal)
      = (x : EReal) + ∑ j, Ideal.div
          (Ideal.exp ((S j : EReal) - max (⊥ : EReal) (Finset.univ.fold max (⊥ : EReal) (fun j' => (S j' : EReal)))))
          ((0 : EReal) + ∑ j'', Ideal.exp ((S j'' : EReal)
            - max (⊥ : EReal) (Finset.univ.fold max (⊥ : EReal) (fun j' => (S j' : EReal)))))
        * (v j : EReal) := by
  obtain ⟨M, hM⟩ := fold_max_bot_coe (Finset.univ : Finset ι) Finset.univ_nonempty S
  simp only [hM, max_bot_left, zero_add, ← EReal.coe_sub, Ideal.exp_coe]
  exact div_sum_eq_sum_div (fun j => Real.exp (S j - M)) (fun j => Real.exp_pos _) v x

/-- One output entry: the deferred and the softmax arrangement agree on real queries, keys, values
    and residual, over any finite index types with at least one key. -/
theorem rowDeferred_eq_rowSoftmax [Nonempty ι] (q : δ → ℝ) (k : ι → δ → ℝ) (v : ι → ℝ) (x : ℝ) :
    rowDeferred (fun d => (q d : EReal)) (fun j d => (k j d : EReal)) (fun j => (v j : EReal)) (x : EReal)
      = rowSoftmax (fun d => (q d : EReal)) (fun j d => (k j d : EReal)) (fun j => (v j : EReal)) (x : EReal) := by
  simp only [rowDeferred, rowSoftmax, scale_eq, negInf_eq, zero_eq, scores_deferred, scores_softmax]
  exact softmax_core (fun j => (∑ d, q d * k j d) * (1 / 16)) v x

end General

/-! ### The arrays -/

/-- An entry of a linear layer on real activations, weights and bias is a real. -/
theorem lin_coe (X : SX.Idx → ℝ) (W : SW.Idx → ℝ) (b : SB.Idx → ℝ) (bt : Fin 8) (s : Fin 4096) (e : Fin 256) :
    lin (fun i => (X i : EReal)) (fun i => (W i : EReal)) (fun i => (b i : EReal)) bt s e
      = (((∑ d : Fin 256, X (ix3 bt s d) * W (ix2 e d)) + b (ix1 e) : ℝ) : EReal) := by
  simp only [lin, ← EReal.coe_mul, ← coe_finset_sum, ← EReal.coe_add]

/-- The two arrangements of the whole attention layer agree, entry by entry, on finite inputs. -/
theorem outDeferred_eq_outSoftmax
    (X : SX.Idx → EReal) (Wq : SW.Idx → EReal) (bq : SB.Idx → EReal) (Wk : SW.Idx → EReal) (bk : SB.Idx → EReal)
    (Wv : SW.Idx → EReal) (bv : SB.Idx → EReal)
    (hX : ∀ i, ∃ r : ℝ, X i = (r : EReal)) (hWq : ∀ i, ∃ r : ℝ, Wq i = (r : EReal))
    (hbq : ∀ i, ∃ r : ℝ, bq i = (r : EReal))
    (hWk : ∀ i, ∃ r : ℝ, Wk i = (r : EReal)) (hbk : ∀ i, ∃ r : ℝ, bk i = (r : EReal))
    (hWv : ∀ i, ∃ r : ℝ, Wv i = (r : EReal)) (hbv : ∀ i, ∃ r : ℝ, bv i = (r : EReal))
    (bt : Fin 8) (s : Fin 4096) (e : Fin 256) :
    outDeferred X Wq bq Wk bk Wv bv bt s e = outSoftmax X Wq bq Wk bk Wv bv bt s e := by
  choose X' hX' using hX
  choose Wq' hWq' using hWq
  choose bq' hbq' using hbq
  choose Wk' hWk' using hWk
  choose bk' hbk' using hbk
  choose Wv' hWv' using hWv
  choose bv' hbv' using hbv
  obtain rfl : X = fun i => (X' i : EReal) := funext hX'
  obtain rfl : Wq = fun i => (Wq' i : EReal) := funext hWq'
  obtain rfl : bq = fun i => (bq' i : EReal) := funext hbq'
  obtain rfl : Wk = fun i => (Wk' i : EReal) := funext hWk'
  obtain rfl : bk = fun i => (bk' i : EReal) := funext hbk'
  obtain rfl : Wv = fun i => (Wv' i : EReal) := funext hWv'
  obtain rfl : bv = fun i => (bv' i : EReal) := funext hbv'
  simp only [outDeferred, outSoftmax, lin_coe]
  exact rowDeferred_eq_rowSoftmax _ _ _ _

end Cert.Attention

end
-- ==== Proof.ReferenceValue.lean ====
/-
  The reference program's result read index by index. Each operation of the reference is read at explicit
  coordinates (batch, row, column), from the three projections x Wᵀ + b through the scaled scores, the row
  maximum, the exponentials, their sum, the weights and the weighted sum of the values, down to the residual
  addition; the outcome is the specification's softmax arrangement of single-head attention.
-/
import proofs.«107308_j35098472743342_2_alg».proof.Proof.Gen.ReferenceIdeal.Read
import proofs.«107308_j35098472743342_2_alg».proof.Proof.Attention

noncomputable section

namespace Cert.ReferenceIdeal.RefValue

open Cert.ReferenceIdeal Cert.ReferenceIdeal.Gen Cert.ReferenceIdeal.Read Idealize.ShloMosaic Idealize.ShloMosaic.ValueIdx

/-- The three kinds of argument: activations [8, 4096, 256], a weight [256, 256], a bias [256]. -/
abbrev TX : Type := (⟨S8x4096x256, .f32⟩ : BufTy).Contents (Elt Ideal)
abbrev TW : Type := (⟨S256x256, .f32⟩ : BufTy).Contents (Elt Ideal)
abbrev TB : Type := (⟨S256, .f32⟩ : BufTy).Contents (Elt Ideal)

/-! ## The three projections -/

/-- The query projection at (b, s, d) is the linear layer's entry. -/
theorem q_at (x0 : TX) (x1 : TW) (x2 : TB) (b : Fin 8) (s : Fin 4096) (d : Fin 256) :
    val_main_v3 (F := Ideal) x0 x1 x2 (ix3 b s d) = Cert.Attention.lin x0 x1 x2 b s d := by
  rw [val_main_v3_apply, val_main_v0_apply, val_main_v2_apply, val_main_v1_apply]
  have e0 : ∀ k : Fin 256, lidx_main_v0 (ix3 b s d) k = ix3 b s k := fun k => funext fun a => Fin.ext (by
    match a with | ⟨0, _⟩ => rfl | ⟨1, _⟩ => rfl | ⟨2, _⟩ => rfl)
  have e1 : ∀ k : Fin 256, ridx_main_v0 (ix3 b s d) k = ix2 d k := fun k => funext fun a => Fin.ext (by
    match a with | ⟨0, _⟩ => rfl | ⟨1, _⟩ => rfl)
  have e2 : idx_main_v1 (idx_main_v2 (ix3 b s d)) = ix1 d := funext fun a => Fin.ext (by
    match a with | ⟨0, _⟩ => rfl)
  rw [e2]
  unfold Cert.Attention.lin
  refine congrArg (· + x2 (ix1 d)) (Finset.sum_congr rfl fun k _ => ?_)
  rw [e0, e1]

/-- The key projection at (b, s, d) is the linear layer's entry. -/
theorem k_at (x0 : TX) (x3 : TW) (x4 : TB) (b : Fin 8) (s : Fin 4096) (d : Fin 256) :
    val_main_v7 (F := Ideal) x0 x3 x4 (ix3 b s d) = Cert.Attention.lin x0 x3 x4 b s d := by
  rw [val_main_v7_apply, val_main_v4_apply, val_main_v6_apply, val_main_v5_apply]
  have e0 : ∀ k : Fin 256, lidx_main_v4 (ix3 b s d) k = ix3 b s k := fun k => funext fun a => Fin.ext (by
    match a with | ⟨0, _⟩ => rfl | ⟨1, _⟩ => rfl | ⟨2, _⟩ => rfl)
  have e1 : ∀ k : Fin 256, ridx_main_v4 (ix3 b s d) k = ix2 d k := fun k => funext fun a => Fin.ext (by
    match a with | ⟨0, _⟩ => rfl | ⟨1, _⟩ => rfl)
  have e2 : idx_main_v5 (idx_main_v6 (ix3 b s d)) = ix1 d := funext fun a => Fin.ext (by
    match a with | ⟨0, _⟩ => rfl)
  rw [e2]
  unfold Cert.Attention.lin
  refine congrArg (· + x4 (ix1 d)) (Finset.sum_congr rfl fun k _ => ?_)
  rw [e0, e1]

/-- The value projection at (b, s, d) is the linear layer's entry. -/
theorem v_at (x0 : TX) (x5 : TW) (x6 : TB) (b : Fin 8) (s : Fin 4096) (d : Fin 256) :
    val_main_v11 (F := Ideal) x0 x5 x6 (ix3 b s d) = Cert.Attention.lin x0 x5 x6 b s d := by
  rw [val_main_v11_apply, val_main_v8_apply, val_main_v10_apply, val_main_v9_apply]
  have e0 : ∀ k : Fin 256, lidx_main_v8 (ix3 b s d) k = ix3 b s k := fun k => funext fun a => Fin.ext (by
    match a with | ⟨0, _⟩ => rfl | ⟨1, _⟩ => rfl | ⟨2, _⟩ => rfl)
  have e1 : ∀ k : Fin 256, ridx_main_v8 (ix3 b s d) k = ix2 d k := fun k => funext fun a => Fin.ext (by
    match a with | ⟨0, _⟩ => rfl | ⟨1, _⟩ => rfl)
  have e2 : idx_main_v9 (idx_main_v10 (ix3 b s d)) = ix1 d := funext fun a => Fin.ext (by
    match a with | ⟨0, _⟩ => rfl)
  rw [e2]
  unfold Cert.Attention.lin
  refine congrArg (· + x6 (ix1 d)) (Finset.sum_congr rfl fun k _ => ?_)
  rw [e0, e1]

/-! ## The scaled scores -/

/-- The scaled score of row `s` against row `j` in batch `b`: (q_s · k_j) / 16. -/
def sc (x0 : TX) (x1 : TW) (x2 : TB) (x3 : TW) (x4 : TB) (b : Fin 8) (s j : Fin 4096) : EReal :=
  (∑ d : Fin 256, Cert.Attention.lin x0 x1 x2 b s d * Cert.Attention.lin x0 x3 x4 b j d) * Cert.Attention.scale

/-- The product of the queries with the keys, times the broadcast constant, at (b, s, j). -/
theorem score_at (x0 : TX) (x1 : TW) (x2 : TB) (x3 : TW) (x4 : TB) (b : Fin 8) (s j : Fin 4096) :
    val_main_v14 (F := Ideal) x0 x1 x2 x3 x4 (ix3 b s j) = sc x0 x1 x2 x3 x4 b s j := by
  rw [val_main_v14_apply, val_main_v12_apply, val_main_v13_apply, val_main_cst_apply]
  have el : ∀ k : Fin 256, lidx_main_v12 (ix3 b s j) k = ix3 b s k := fun k => funext fun a => Fin.ext (by
    match a with | ⟨0, _⟩ => rfl | ⟨1, _⟩ => rfl | ⟨2, _⟩ => rfl)
  have er : ∀ k : Fin 256, ridx_main_v12 (ix3 b s j) k = ix3 b j k := fun k => funext fun a => Fin.ext (by
    match a with | ⟨0, _⟩ => rfl | ⟨1, _⟩ => rfl | ⟨2, _⟩ => rfl)
  unfold sc
  refine congrArg (· * Cert.Attention.scale) (Finset.sum_congr rfl fun k _ => ?_)
  rw [el, er, q_at, k_at]

/-! ## The row maximum -/

/-- The maximum of row `s`'s scaled scores, as the reference takes it: −∞ against the fold from −∞. -/
def mx (x0 : TX) (x1 : TW) (x2 : TB) (x3 : TW) (x4 : TB) (b : Fin 8) (s : Fin 4096) : EReal :=
  max Cert.Attention.negInf
    ((Finset.univ : Finset (Fin 4096)).fold max Cert.Attention.negInf (fun j' => sc x0 x1 x2 x3 x4 b s j'))

/-- Dropping the last of the three axes is a one-axis reduction. -/
theorem reduces_d2 : S8x4096x4096.Reduces [2] S8x4096 := by decide

/-- The reduced index (b, s) with coordinate `k` put back on the last axis is (b, s, k). -/
theorem lift_d2 (h : S8x4096x4096.Reduces [2] S8x4096) (b : Fin 8) (s : Fin 4096) (k : Fin (S8x4096x4096.size 2)) :
    h.lift (ix2 b s) k = ix3 b s (⟨k.val, k.isLt⟩ : Fin 4096) := by
  funext a
  apply Fin.ext
  match a with | ⟨0, _⟩ => rfl | ⟨1, _⟩ => rfl | ⟨2, _⟩ => rfl

/-- The maximum-reduction over the last axis at (b, s) is the fold of `max` from −∞ over that row's scores. -/
theorem v15_at (x0 : TX) (x1 : TW) (x2 : TB) (x3 : TW) (x4 : TB) (b : Fin 8) (s : Fin 4096) :
    val_main_v15 (F := Ideal) x0 x1 x2 x3 x4 (ix2 b s)
      = (Finset.univ : Finset (Fin 4096)).fold max Cert.Attention.negInf (fun j' => sc x0 x1 x2 x3 x4 b s j') := by
  unfold val_main_v15
  rw [Host.reduce_eq_fold_single FloatOps.maximumf _ _ _ reduces_d2 _]
  have hf : (val_main_v14 (F := Ideal) x0 x1 x2 x3 x4 ∘ reduces_d2.lift (ix2 b s)) = fun j' : Fin 4096 => sc x0 x1 x2 x3 x4 b s j' :=
    funext fun k => by
      show val_main_v14 (F := Ideal) x0 x1 x2 x3 x4 (reduces_d2.lift (ix2 b s) k) = _
      rw [lift_d2]
      exact score_at x0 x1 x2 x3 x4 b s _
  exact congrArg (fun f => Finset.fold max Cert.Attention.negInf f (Finset.univ : Finset (Fin 4096))) hf

/-- The row maximum at (b, s). -/
theorem max_at (x0 : TX) (x1 : TW) (x2 : TB) (x3 : TW) (x4 : TB) (b : Fin 8) (s : Fin 4096) :
    val_main_v17 (F := Ideal) x0 x1 x2 x3 x4 (ix2 b s) = mx x0 x1 x2 x3 x4 b s := by
  rw [val_main_v17_apply, val_main_v16_apply, val_main_cst_1_apply, v15_at]
  rfl

/-! ## The exponentials, their sum and the weights -/

/-- exp (score − row maximum). -/
def ex (x0 : TX) (x1 : TW) (x2 : TB) (x3 : TW) (x4 : TB) (b : Fin 8) (s j : Fin 4096) : EReal :=
  Ideal.exp (sc x0 x1 x2 x3 x4 b s j - mx x0 x1 x2 x3 x4 b s)

/-- The exponential of the score less the broadcast row maximum, at (b, s, j). -/
theorem exp_at (x0 : TX) (x1 : TW) (x2 : TB) (x3 : TW) (x4 : TB) (b : Fin 8) (s j : Fin 4096) :
    val_main_v21 (F := Ideal) x0 x1 x2 x3 x4 (ix3 b s j) = ex x0 x1 x2 x3 x4 b s j := by
  rw [val_main_v21_apply, val_main_v20_apply, val_main_v19_apply, val_main_v18_apply, score_at]
  have e : idx_main_v18 (idx_main_v19 (ix3 b s j)) = ix2 b s := funext fun a => Fin.ext (by
    match a with | ⟨0, _⟩ => rfl | ⟨1, _⟩ => rfl)
  rw [e, max_at]
  rfl

/-- The row's sum of exponentials, as the reference takes it: 0 plus the sum. -/
def sm (x0 : TX) (x1 : TW) (x2 : TB) (x3 : TW) (x4 : TB) (b : Fin 8) (s : Fin 4096) : EReal :=
  Cert.Attention.zero + ∑ j'' : Fin 4096, ex x0 x1 x2 x3 x4 b s j''

/-- The sum-reduction over the last axis at (b, s). -/
theorem sum_at (x0 : TX) (x1 : TW) (x2 : TB) (x3 : TW) (x4 : TB) (b : Fin 8) (s : Fin 4096) :
    val_main_v22 (F := Ideal) x0 x1 x2 x3 x4 (ix2 b s) = sm x0 x1 x2 x3 x4 b s := by
  rw [val_main_v22_apply, val_main_cst_2_apply]
  unfold sm
  refine congrArg (Cert.Attention.zero + ·) (Finset.sum_congr rfl fun k _ => ?_)
  have e : idx_main_v22 (ix2 b s) k = ix3 b s k := funext fun a => Fin.ext (by
    match a with | ⟨0, _⟩ => rfl | ⟨1, _⟩ => rfl | ⟨2, _⟩ => rfl)
  rw [e, exp_at]

/-- The softmax weight at (b, s, j): the exponential over the broadcast row sum. -/
theorem weight_at (x0 : TX) (x1 : TW) (x2 : TB) (x3 : TW) (x4 : TB) (b : Fin 8) (s j : Fin 4096) :
    val_main_v25 (F := Ideal) x0 x1 x2 x3 x4 (ix3 b s j) = Ideal.div (ex x0 x1 x2 x3 x4 b s j) (sm x0 x1 x2 x3 x4 b s) := by
  rw [val_main_v25_apply, val_main_v24_apply, val_main_v23_apply, exp_at]
  have e : idx_main_v23 (idx_main_v24 (ix3 b s j)) = ix2 b s := funext fun a => Fin.ext (by
    match a with | ⟨0, _⟩ => rfl | ⟨1, _⟩ => rfl)
  rw [e, sum_at]
  rfl

/-! ## The weighted sum of the values, and the residual -/

/-- The product of the weights with the values at (b, s, e). -/
theorem prod_at (x0 : TX) (x1 : TW) (x2 : TB) (x3 : TW) (x4 : TB) (x5 : TW) (x6 : TB) (b : Fin 8) (s : Fin 4096) (e : Fin 256) :
    val_main_v26 (F := Ideal) x0 x1 x2 x3 x4 x5 x6 (ix3 b s e)
      = ∑ j : Fin 4096, Ideal.div (ex x0 x1 x2 x3 x4 b s j) (sm x0 x1 x2 x3 x4 b s) * Cert.Attention.lin x0 x5 x6 b j e := by
  rw [val_main_v26_apply]
  refine Finset.sum_congr rfl fun k _ => ?_
  have el : lidx_main_v26 (ix3 b s e) k = ix3 b s k := funext fun a => Fin.ext (by
    match a with | ⟨0, _⟩ => rfl | ⟨1, _⟩ => rfl | ⟨2, _⟩ => rfl)
  have er : ridx_main_v26 (ix3 b s e) k = ix3 b k e := funext fun a => Fin.ext (by
    match a with | ⟨0, _⟩ => rfl | ⟨1, _⟩ => rfl | ⟨2, _⟩ => rfl)
  rw [el, er, weight_at, v_at]

/-- The reference's result at (b, s, e) is the specification's softmax arrangement there. -/
theorem reference_at (x0 : TX) (x1 : TW) (x2 : TB) (x3 : TW) (x4 : TB) (x5 : TW) (x6 : TB) (b : Fin 8) (s : Fin 4096) (e : Fin 256) :
    val_main_v27 (F := Ideal) x0 x1 x2 x3 x4 x5 x6 (ix3 b s e) = Cert.Attention.outSoftmax x0 x1 x2 x3 x4 x5 x6 b s e := by
  rw [val_main_v27_apply, prod_at]
  simp only [Cert.Attention.outSoftmax, Cert.Attention.rowSoftmax, sm, ex, mx, sc, Ideal.addf_def]

/-- The reference's result, as a function of the index, is the specification's softmax arrangement. -/
theorem reference_eq (x0 : (⟨Cert.ReferenceIdeal.S8x4096x256, .f32⟩ : BufTy).Contents (Elt Ideal))
    (x1 : (⟨Cert.ReferenceIdeal.S256x256, .f32⟩ : BufTy).Contents (Elt Ideal))
    (x2 : (⟨Cert.ReferenceIdeal.S256, .f32⟩ : BufTy).Contents (Elt Ideal))
    (x3 : (⟨Cert.ReferenceIdeal.S256x256, .f32⟩ : BufTy).Contents (Elt Ideal))
    (x4 : (⟨Cert.ReferenceIdeal.S256, .f32⟩ : BufTy).Contents (Elt Ideal))
    (x5 : (⟨Cert.ReferenceIdeal.S256x256, .f32⟩ : BufTy).Contents (Elt Ideal))
    (x6 : (⟨Cert.ReferenceIdeal.S256, .f32⟩ : BufTy).Contents (Elt Ideal)) :
    Cert.ReferenceIdeal.Read.val_main_v27 (F := Ideal) x0 x1 x2 x3 x4 x5 x6
      = fun i => Cert.Attention.outSoftmax x0 x1 x2 x3 x4 x5 x6 (i 0) (i 1) (i 2) := by
  funext i
  obtain ⟨b, s, e, rfl⟩ : ∃ (b : Fin 8) (s : Fin 4096) (e : Fin 256), i = ix3 b s e := ⟨i 0, i 1, i 2, eq_ix3 i⟩
  exact reference_at x0 x1 x2 x3 x4 x5 x6 b s e

end Cert.ReferenceIdeal.RefValue

end
-- ==== Proof.FiniteInputs.lean ====
/-
  The printed finiteness precondition, read back: when it evaluates to true over the extended reals,
  every element of every one of the seven float arrays is a real.

  The precondition takes, array by array, the absolute value, compares it below +∞, folds the
  comparisons by "and" over all axes from true, and conjoins the seven results.  So the result is true
  only if every comparison is, and |a| < +∞ on the extended reals excludes exactly −∞ and +∞.
-/
import proofs.«107308_j35098472743342_2_alg».proof.Pre_finite_inputs
import proofs.«107308_j35098472743342_2_alg».proof.Proof.Gen.Pre_finite_inputs
import Idealize.ShloMosaic.PureOps.Ideal
import Idealize.ShloMosaic.Lib.ReduceAll
import Idealize.ShloMosaic.Lib.ValueIdx

namespace Cert.Finite

open Idealize.ShloMosaic

/-! ### Reusable: one element, then one array of any shape -/

/-- The pattern 0x7F800000 is +∞. -/
theorem ofBits_posInf : Ideal.ofBits .f32 0x7F800000#32 = (⊤ : EReal) := by
  simp [Ideal.ofBits, Ideal.ieee]

/-- One element: if max a (−a) compares below +∞ then a is a real (at −∞ and at +∞ the maximum
    is +∞, which is not below itself). -/
theorem real_of_abs_lt_posInf (a : Ideal .f32)
    (h : FloatOps.cmpf .olt (FloatOps.hostAbsf a) (FloatOps.ofBits (F := Ideal) .f32 0x7F800000#32) = 1#1) :
    ∃ r : ℝ, a = (r : EReal) := by
  change Ideal.cmp .olt (max a (-a)) (Ideal.ofBits .f32 0x7F800000#32) = 1#1 at h
  rw [ofBits_posInf] at h
  induction a using EReal.rec with
  | bot => simp [Ideal.cmp] at h
  | coe r => exact ⟨r, rfl⟩
  | top => simp [Ideal.cmp] at h

/-- One array of any shape: if the fold by "and" over all axes of the comparisons |x i| < +∞ (the
    bound broadcast from a constant) is true, every element of x is a real. -/
theorem real_of_all {s t u v : Shape} {axes : List (Fin s.rank)} [Subsingleton t.Idx]
    (x : FVec Ideal s .f32) (dims : Fin v.rank → Fin s.rank) (hb : v.BroadcastsInDim s dims)
    (init : u.Idx → BitVec 1) (hr : s.ReducesTo axes t) (hu : 0 < u.numel) (j : t.Idx)
    (e : Host.reduce IntOp.andi
          (cmpf .olt (Host.absf x) (broadcastInDim s dims hb (constant v .f32 0x7F800000#32))) init hr hu j = 1#1)
    (i : s.Idx) : ∃ r : ℝ, x i = (r : EReal) :=
  real_of_abs_lt_posInf (x i) (Host.reduce_andi_all _ init hr hu j e i)

/-! ### The seven arrays -/

/-- The rank-0 shape has one index. -/
instance : Subsingleton Cert.Pre_finite_inputs.S_.Idx := ⟨fun a b => funext fun d => d.elim0⟩

/-- If the finiteness precondition holds, all seven arrays are real-valued. -/
theorem real_of_pre [Cert.Pre_finite_inputs.Facts]
    (x0 : FVec Ideal Cert.Pre_finite_inputs.S8x4096x256 .f32) (x1 : FVec Ideal Cert.Pre_finite_inputs.S256x256 .f32)
    (x2 : FVec Ideal Cert.Pre_finite_inputs.S256 .f32) (x3 : FVec Ideal Cert.Pre_finite_inputs.S256x256 .f32)
    (x4 : FVec Ideal Cert.Pre_finite_inputs.S256 .f32) (x5 : FVec Ideal Cert.Pre_finite_inputs.S256x256 .f32)
    (x6 : FVec Ideal Cert.Pre_finite_inputs.S256 .f32)
    (h : Cert.Pre_finite_inputs.fn (F := Ideal) x0 x1 x2 x3 x4 x5 x6 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) := by
  have h0 := congrFun h ValueIdx.ix0
  dsimp only [Cert.Pre_finite_inputs.fn, Cert.Pre_finite_inputs.fn_part1] at h0
  simp only [andi, IntOp.andi_eq_one] at h0
  obtain ⟨⟨⟨⟨⟨⟨e0, e1⟩, e2⟩, e3⟩, e4⟩, e5⟩, e6⟩ := h0
  exact ⟨real_of_all x0 _ _ _ _ _ _ e0, real_of_all x1 _ _ _ _ _ _ e1, real_of_all x2 _ _ _ _ _ _ e2,
    real_of_all x3 _ _ _ _ _ _ e3, real_of_all x4 _ _ _ _ _ _ e4, real_of_all x5 _ _ _ _ _ _ e5,
    real_of_all x6 _ _ _ _ _ _ e6⟩

end Cert.Finite
-- ==== Proof.KernelPieces.lean ====
/-
  What one run of the attention body leaves behind, as values.

  At the first query tile of a batch (case A) the body projects the batch's whole x block into keys and values,
  stores them in its two scratch buffers, and then computes the tile's output from those; at every other tile
  (case B) it computes the output from the keys and values the scratch buffers already hold. Each buffer is
  written by one store through its whole extent, so what it ends holding is that store's payload, and every load
  of a whole buffer reads the buffer's contents; the one partial load is the query tile, 512 rows of the x block.
-/
import proofs.«107308_j35098472743342_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The query tile: the 512 rows of the batch's x block that the body loads at grid coordinates `i`. -/
abbrev tile (i : grid0.Coords) (x0 : Vec F S1x4096x256 .f32) : Vec F S1x512x256 .f32 :=
  View.ld x0 (Rect.unit (s := S1x4096x256) (k0_off1 i) S1x512x256.size (k0_off1_inb i))

/-- Case A leaves the keys, x Wkᵀ + bk of the whole block, in the first scratch buffer. -/
theorem keys_A (c : Dev nD) (i : grid0.Coords) (arg2 : Memref sig .tc .vmem S1x4096x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S1x512x256 .f32) (harg9 : arg9.IsWhole) (arg10 : Memref sig .tc .vmem S4096x256 .bf16) (harg10 : arg10.IsWhole) (arg11 : Memref sig .tc .vmem S4096x256 .bf16) (harg11 : arg11.IsWhole) (hc0 : cond0_0 i) (x0 : Vec F S1x4096x256 .f32) (x1 : Vec F S256x256 .f32) (x2 : Vec F S256 .f32) (x3 : Vec F S256x256 .f32) (x4 : Vec F S256 .f32) (x5 : Vec F S256x256 .f32) (x6 : Vec F S256 .f32) :
    sout0_A_0 c i arg2 harg2 arg3 harg3 arg4 harg4 arg5 harg5 arg6 harg6 arg7 harg7 arg8 harg8 arg9 harg9 arg10 harg10 arg11 harg11 hc0 x0 x1 x2 x3 x4 x5 x6 = k0_pay3 x0 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz2]
  simp only [View.readAt_eq_ld, harg2.read_unread, harg5.read_unread, harg6.read_unread,
    View.ld_unit_zero (S := S1x4096x256) hz3, View.ld_unit_zero (S := S256x256) hz2, View.ld_unit_zero (S := S256) hz1]

/-- Case A leaves the values, x Wvᵀ + bv of the whole block, in the second scratch buffer. -/
theorem values_A (c : Dev nD) (i : grid0.Coords) (arg2 : Memref sig .tc .vmem S1x4096x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S1x512x256 .f32) (harg9 : arg9.IsWhole) (arg10 : Memref sig .tc .vmem S4096x256 .bf16) (harg10 : arg10.IsWhole) (arg11 : Memref sig .tc .vmem S4096x256 .bf16) (harg11 : arg11.IsWhole) (hc0 : cond0_0 i) (x0 : Vec F S1x4096x256 .f32) (x1 : Vec F S256x256 .f32) (x2 : Vec F S256 .f32) (x3 : Vec F S256x256 .f32) (x4 : Vec F S256 .f32) (x5 : Vec F S256x256 .f32) (x6 : Vec F S256 .f32) :
    sout0_A_1 c i arg2 harg2 arg3 harg3 arg4 harg4 arg5 harg5 arg6 harg6 arg7 harg7 arg8 harg8 arg9 harg9 arg10 harg10 arg11 harg11 hc0 x0 x1 x2 x3 x4 x5 x6 = k0_pay4 x0 x5 x6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz2]
  simp only [View.readAt_eq_ld, harg2.read_unread, harg7.read_unread, harg8.read_unread,
    View.ld_unit_zero (S := S1x4096x256) hz3, View.ld_unit_zero (S := S256x256) hz2, View.ld_unit_zero (S := S256) hz1]

/-- Case A's output tile: attention of the query tile against the keys and values it has just stored. -/
theorem out_A (c : Dev nD) (i : grid0.Coords) (arg2 : Memref sig .tc .vmem S1x4096x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S1x512x256 .f32) (harg9 : arg9.IsWhole) (arg10 : Memref sig .tc .vmem S4096x256 .bf16) (harg10 : arg10.IsWhole) (arg11 : Memref sig .tc .vmem S4096x256 .bf16) (harg11 : arg11.IsWhole) (hc0 : cond0_0 i) (x0 : Vec F S1x4096x256 .f32) (x1 : Vec F S256x256 .f32) (x2 : Vec F S256 .f32) (x3 : Vec F S256x256 .f32) (x4 : Vec F S256 .f32) (x5 : Vec F S256x256 .f32) (x6 : Vec F S256 .f32) :
    out0_A_7 c i arg2 harg2 arg3 harg3 arg4 harg4 arg5 harg5 arg6 harg6 arg7 harg7 arg8 harg8 arg9 harg9 arg10 harg10 arg11 harg11 hc0 x0 x1 x2 x3 x4 x5 x6
      = k0_pay1 (k0_pay5 (tile i x0) x1 x2 (k0_pay3 x0 x3 x4) (k0_pay4 x0 x5 x6)) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz3, View.readCov_unit_zero (S := S4096x256) _ hz2, View.readCov_unit_zero (S := S4096x256) _ hz2]
  simp only [View.readAt_eq_ld, harg2.read_unread, harg3.read_unread, harg4.read_unread, harg5.read_unread, harg6.read_unread,
    harg7.read_unread, harg8.read_unread,
    View.ld_unit_zero (S := S1x4096x256) hz3, View.ld_unit_zero (S := S256x256) hz2, View.ld_unit_zero (S := S256) hz1]
  rfl

/-- Case B's output tile: attention of the query tile against the keys `xs0` and values `xs1` the scratch
    buffers hold from the batch's first tile. -/
theorem out_B (c : Dev nD) (i : grid0.Coords) (arg2 : Memref sig .tc .vmem S1x4096x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S1x512x256 .f32) (harg9 : arg9.IsWhole) (arg10 : Memref sig .tc .vmem S4096x256 .bf16) (harg10 : arg10.IsWhole) (arg11 : Memref sig .tc .vmem S4096x256 .bf16) (harg11 : arg11.IsWhole) (hc0 : ¬cond0_0 i) (x0 : Vec F S1x4096x256 .f32) (x1 : Vec F S256x256 .f32) (x2 : Vec F S256 .f32) (x3 : Vec F S256x256 .f32) (x4 : Vec F S256 .f32) (x5 : Vec F S256x256 .f32) (x6 : Vec F S256 .f32) (xs0 xs1 : Vec F S4096x256 .bf16) :
    out0_B_7 c i arg2 harg2 arg3 harg3 arg4 harg4 arg5 harg5 arg6 harg6 arg7 harg7 arg8 harg8 arg9 harg9 arg10 harg10 arg11 harg11 hc0 x0 x1 x2 x3 x4 x5 x6 xs0 xs1
      = k0_pay1 (k0_pay5 (tile i x0) x1 x2 xs0 xs1) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 x6 xs0 xs1)]
  unfold kernelRun0_B
  dsimp only
  sl_unfold_words
  rw [View.canon_unit_zero hz3]
  simp only [View.readAt_eq_ld, harg2.read_unread, harg3.read_unread, harg4.read_unread, harg10.read_unread, harg11.read_unread,
    View.ld_unit_zero (S := S4096x256) hz2, View.ld_unit_zero (S := S256x256) hz2, View.ld_unit_zero (S := S256) hz1]
  rfl

end Cert.KernelIdeal.Pieces

end
-- ==== Proof.LibRowRowDot.lean ====
/-
  A matrix product contracted on the LAST axis of both operands: [M, K] × [N, K] → [M, N] (rows against rows, the
  product with the second operand transposed), accumulated into zero. Over the extended reals its entry (p, c) is
  the sum over k of l(p, k) · r(c, k).

  The dimension record is any one whose operand indices have the four evident coordinates (a concrete record
  supplies them by computation): the left index at output (p, c) and contraction index k is (p, k), the right one
  is (c, k).
-/
import Idealize.ShloMosaic.Lib.ValueIdx
import Idealize.ShloMosaic.PureOps.Ideal.Laws

noncomputable section

namespace Cert.Lib

open Idealize.ShloMosaic Idealize.ShloMosaic.ValueIdx

/-- A `tpu.matmul` of an `[M, K]` and an `[N, K]` operand contracted on their last axes, into the zero accumulator,
    read at `(p, c)` over the extended reals: `∑ k, l (p, k) * r (c, k)`. -/
theorem matmul_zero_rows_rows {M N K : ℕ} {φ₁ φ₂ : FTy} (d : DotDims ⟨2, ![M, K]⟩ ⟨2, ![N, K]⟩ ⟨2, ![M, N]⟩)
    (hr : d.contr.rank = 1) (hs : d.contr.size ⟨0, by omega⟩ = K)
    (hl0 : ∀ (j : (⟨2, ![M, N]⟩ : Shape).Idx) (q : d.contr.Idx), (d.lhsIdx j q 0).val = (j 0).val)
    (hl1 : ∀ (j : (⟨2, ![M, N]⟩ : Shape).Idx) (q : d.contr.Idx), (d.lhsIdx j q 1).val = (q ⟨0, by omega⟩).val)
    (hr0 : ∀ (j : (⟨2, ![M, N]⟩ : Shape).Idx) (q : d.contr.Idx), (d.rhsIdx j q 0).val = (j 1).val)
    (hr1 : ∀ (j : (⟨2, ![M, N]⟩ : Shape).Idx) (q : d.contr.Idx), (d.rhsIdx j q 1).val = (q ⟨0, by omega⟩).val)
    (prec : Option ContractPrecision) (l : FVec Ideal ⟨2, ![M, K]⟩ φ₁) (r : FVec Ideal ⟨2, ![N, K]⟩ φ₂)
    (p : Fin M) (c : Fin N) :
    FloatOps.matmul d prec l r (constant (F := Ideal) ⟨2, ![M, N]⟩ .f32 0x00000000#32) (ix2 p c)
      = ∑ k : Fin K, l (ix2 p k) * r (ix2 c k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 c k := funext fun a => Fin.ext (by
    match a with
    | ⟨0, _⟩ => exact hr0 _ _
    | ⟨1, _⟩ => exact (hr1 _ _).trans hk)
  rw [el, er]

end Cert.Lib

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibColumnCast.lean ====
/-
  A vector as a column: an [a] array cast to [a, 1] reads, at (i, 0), the operand at i.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib

end
-- ==== Proof.LibColumnBroadcast.lean ====
/-
  A column broadcast over the columns: a [a, 1] array broadcast to [a, b] reads, at (p, c), the operand's row p.
-/
import Idealize.ShloMosaic.Lib.Pipeline.Value
import Idealize.ShloMosaic.Lib.ValueIdx

noncomputable section

namespace Cert.Lib

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KernelPayloads.lean ====
/-
  The body's arithmetic read at an index, over the extended reals.

  A format change is the identity there and a matrix product into a zero accumulator is the plain sum of
  products, so: the keys and values are the linear layers x Wkᵀ + bk and x Wvᵀ + bv of the batch's x block, and
  the output tile is, entry by entry, attention in the deferred arrangement — the scale folded into the query
  tile's projection, the scores' row maximum subtracted, the exponentials summed and multiplied into the values,
  and the quotient by the row sum taken once at the end, plus the residual.
-/
import proofs.«107308_j35098472743342_2_alg».proof.Proof.Gen.KernelIdeal.Skeleton
import proofs.«107308_j35098472743342_2_alg».proof.Proof.LibRowRowDot
import proofs.«107308_j35098472743342_2_alg».proof.Proof.LibPlainDot
import proofs.«107308_j35098472743342_2_alg».proof.Proof.LibColumnCast
import proofs.«107308_j35098472743342_2_alg».proof.Proof.LibColumnBroadcast
import proofs.«107308_j35098472743342_2_alg».proof.Proof.Attention
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.ValueIdx

namespace Cert.KernelIdeal.Payloads

open Cert.KernelIdeal Cert.KernelIdeal.Gen

/-! ## The products' operand coordinates -/

theorem dK_l0 (j : S4096x256.Idx) (q : dot_S4096x256_S256x256_S4096x256_1_1_0_0_n_n.contr.Idx) : (dot_S4096x256_S256x256_S4096x256_1_1_0_0_n_n.lhsIdx j q 0).val = (j 0).val := by
  unfold DotDims.lhsIdx
  rw [dif_neg (show ¬(0 : Fin S4096x256.rank) ∈ dot_S4096x256_S256x256_S4096x256_1_1_0_0_n_n.lhsBatch by decide), dif_pos (show (0 : Fin S4096x256.rank) ∈ dot_S4096x256_S256x256_S4096x256_1_1_0_0_n_n.lhsNonContracting by decide)]
  rfl
theorem dK_l1 (j : S4096x256.Idx) (q : dot_S4096x256_S256x256_S4096x256_1_1_0_0_n_n.contr.Idx) : (dot_S4096x256_S256x256_S4096x256_1_1_0_0_n_n.lhsIdx j q 1).val = (q ⟨0, by decide⟩).val :=
  dot_S4096x256_S256x256_S4096x256_1_1_0_0_n_n.lhsIdx_val_of_single rfl j q
theorem dK_r0 (j : S4096x256.Idx) (q : dot_S4096x256_S256x256_S4096x256_1_1_0_0_n_n.contr.Idx) : (dot_S4096x256_S256x256_S4096x256_1_1_0_0_n_n.rhsIdx j q 0).val = (j 1).val := by
  unfold DotDims.rhsIdx
  rw [dif_neg (show ¬(0 : Fin S256x256.rank) ∈ dot_S4096x256_S256x256_S4096x256_1_1_0_0_n_n.rhsBatch by decide), dif_pos (show (0 : Fin S256x256.rank) ∈ dot_S4096x256_S256x256_S4096x256_1_1_0_0_n_n.rhsNonContracting by decide)]
  rfl
theorem dK_r1 (j : S4096x256.Idx) (q : dot_S4096x256_S256x256_S4096x256_1_1_0_0_n_n.contr.Idx) : (dot_S4096x256_S256x256_S4096x256_1_1_0_0_n_n.rhsIdx j q 1).val = (q ⟨0, by decide⟩).val :=
  dot_S4096x256_S256x256_S4096x256_1_1_0_0_n_n.rhsIdx_val_of_single rfl j q

theorem dQ_l0 (j : S512x256.Idx) (q : dot_S512x256_S256x256_S512x256_1_1_0_0_n_n.contr.Idx) : (dot_S512x256_S256x256_S512x256_1_1_0_0_n_n.lhsIdx j q 0).val = (j 0).val := by
  unfold DotDims.lhsIdx
  rw [dif_neg (show ¬(0 : Fin S512x256.rank) ∈ dot_S512x256_S256x256_S512x256_1_1_0_0_n_n.lhsBatch by decide), dif_pos (show (0 : Fin S512x256.rank) ∈ dot_S512x256_S256x256_S512x256_1_1_0_0_n_n.lhsNonContracting by decide)]
  rfl
theorem dQ_l1 (j : S512x256.Idx) (q : dot_S512x256_S256x256_S512x256_1_1_0_0_n_n.contr.Idx) : (dot_S512x256_S256x256_S512x256_1_1_0_0_n_n.lhsIdx j q 1).val = (q ⟨0, by decide⟩).val :=
  dot_S512x256_S256x256_S512x256_1_1_0_0_n_n.lhsIdx_val_of_single rfl j q
theorem dQ_r0 (j : S512x256.Idx) (q : dot_S512x256_S256x256_S512x256_1_1_0_0_n_n.contr.Idx) : (dot_S512x256_S256x256_S512x256_1_1_0_0_n_n.rhsIdx j q 0).val = (j 1).val := by
  unfold DotDims.rhsIdx
  rw [dif_neg (show ¬(0 : Fin S256x256.rank) ∈ dot_S512x256_S256x256_S512x256_1_1_0_0_n_n.rhsBatch by decide), dif_pos (show (0 : Fin S256x256.rank) ∈ dot_S512x256_S256x256_S512x256_1_1_0_0_n_n.rhsNonContracting by decide)]
  rfl
theorem dQ_r1 (j : S512x256.Idx) (q : dot_S512x256_S256x256_S512x256_1_1_0_0_n_n.contr.Idx) : (dot_S512x256_S256x256_S512x256_1_1_0_0_n_n.rhsIdx j q 1).val = (q ⟨0, by decide⟩).val :=
  dot_S512x256_S256x256_S512x256_1_1_0_0_n_n.rhsIdx_val_of_single rfl j q

theorem dS_l0 (j : S512x4096.Idx) (q : dot_S512x256_S4096x256_S512x4096_1_1_0_0_n_n.contr.Idx) : (dot_S512x256_S4096x256_S512x4096_1_1_0_0_n_n.lhsIdx j q 0).val = (j 0).val := by
  unfold DotDims.lhsIdx
  rw [dif_neg (show ¬(0 : Fin S512x256.rank) ∈ dot_S512x256_S4096x256_S512x4096_1_1_0_0_n_n.lhsBatch by decide), dif_pos (show (0 : Fin S512x256.rank) ∈ dot_S512x256_S4096x256_S512x4096_1_1_0_0_n_n.lhsNonContracting by decide)]
  rfl
theorem dS_l1 (j : S512x4096.Idx) (q : dot_S512x256_S4096x256_S512x4096_1_1_0_0_n_n.contr.Idx) : (dot_S512x256_S4096x256_S512x4096_1_1_0_0_n_n.lhsIdx j q 1).val = (q ⟨0, by decide⟩).val :=
  dot_S512x256_S4096x256_S512x4096_1_1_0_0_n_n.lhsIdx_val_of_single rfl j q
theorem dS_r0 (j : S512x4096.Idx) (q : dot_S512x256_S4096x256_S512x4096_1_1_0_0_n_n.contr.Idx) : (dot_S512x256_S4096x256_S512x4096_1_1_0_0_n_n.rhsIdx j q 0).val = (j 1).val := by
  unfold DotDims.rhsIdx
  rw [dif_neg (show ¬(0 : Fin S4096x256.rank) ∈ dot_S512x256_S4096x256_S512x4096_1_1_0_0_n_n.rhsBatch by decide), dif_pos (show (0 : Fin S4096x256.rank) ∈ dot_S512x256_S4096x256_S512x4096_1_1_0_0_n_n.rhsNonContracting by decide)]
  rfl
theorem dS_r1 (j : S512x4096.Idx) (q : dot_S512x256_S4096x256_S512x4096_1_1_0_0_n_n.contr.Idx) : (dot_S512x256_S4096x256_S512x4096_1_1_0_0_n_n.rhsIdx j q 1).val = (q ⟨0, by decide⟩).val :=
  dot_S512x256_S4096x256_S512x4096_1_1_0_0_n_n.rhsIdx_val_of_single rfl j q

/-- The reduced index (r) with the reduced coordinate j put back is (r, j). -/
theorem lift_row (r : Fin 512) (j : Fin 4096) : reduces_S512x4096_S512.lift (ix1 r) j = ix2 r j :=
  funext fun a => Fin.ext (by match a with | ⟨0, _⟩ => rfl | ⟨1, _⟩ => rfl)

/-! ## The keys and the values -/

/-- A linear layer of the whole x block: entry (j, d) of x Wᵀ + b. -/
theorem keys_apply (x0 : Vec Ideal S1x4096x256 .f32) (w : Vec Ideal S256x256 .f32) (b : Vec Ideal S256 .f32) (j : Fin 4096) (d : Fin 256) :
    k0_pay3 (F := Ideal) x0 w b (ix2 j d) = (∑ e : Fin 256, x0 (ix3 (0 : Fin 1) j e) * w (ix2 d e)) + b (ix1 d) := by
  unfold k0_pay3 k0_pay2
  dsimp only
  rw [shapeCast_self]
  show FloatOps.matmul (F := Ideal) dot_S4096x256_S256x256_S4096x256_1_1_0_0_n_n none _ _ _ (ix2 j d) + broadcastTo S4096x256 _ _ (ix2 j d) = _
  rw [Cert.Lib.matmul_zero_rows_rows dot_S4096x256_S256x256_S4096x256_1_1_0_0_n_n rfl rfl dK_l0 dK_l1 dK_r0 dK_r1, broadcastTo_1b_ab_apply, shapeCast_a_1a_apply]
  refine congrArg (· + _) (Finset.sum_congr rfl fun e _ => ?_)
  show shapeCast S4096x256 x0 _ (ix2 j e) * w (ix2 d e) = _
  rw [shapeCast_1ab_ab_apply]

theorem values_apply (x0 : Vec Ideal S1x4096x256 .f32) (w : Vec Ideal S256x256 .f32) (b : Vec Ideal S256 .f32) (j : Fin 4096) (d : Fin 256) :
    k0_pay4 (F := Ideal) x0 w b (ix2 j d) = (∑ e : Fin 256, x0 (ix3 (0 : Fin 1) j e) * w (ix2 d e)) + b (ix1 d) := by
  unfold k0_pay4 k0_pay2
  dsimp only
  rw [shapeCast_self]
  show FloatOps.matmul (F := Ideal) dot_S4096x256_S256x256_S4096x256_1_1_0_0_n_n none _ _ _ (ix2 j d) + broadcastTo S4096x256 _ _ (ix2 j d) = _
  rw [Cert.Lib.matmul_zero_rows_rows dot_S4096x256_S256x256_S4096x256_1_1_0_0_n_n rfl rfl dK_l0 dK_l1 dK_r0 dK_r1, broadcastTo_1b_ab_apply, shapeCast_a_1a_apply]
  refine congrArg (· + _) (Finset.sum_congr rfl fun e _ => ?_)
  show shapeCast S4096x256 x0 _ (ix2 j e) * w (ix2 d e) = _
  rw [shapeCast_1ab_ab_apply]

/-- The stored tile is the computed tile with a unit axis in front. -/
theorem pay1_apply (v : FVec Ideal S512x256 .f32) (u : Fin 1) (r : Fin 512) (e : Fin 256) :
    k0_pay1 (F := Ideal) v (ix3 u r e) = v (ix2 r e) := by
  unfold k0_pay1
  exact shapeCast_ab_1ab_apply v _ u r e

/-! ## The output tile, stage by stage -/

section Stages

variable (t : FVec Ideal S1x512x256 .f32) (wq : FVec Ideal S256x256 .f32) (bq : FVec Ideal S256 .f32) (K V : FVec Ideal S4096x256 .bf16)

/-- The query tile's projection, scaled. -/
def qs : FVec Ideal S512x256 .f32 :=
  mulf (addf (matmul dot_S512x256_S256x256_S512x256_1_1_0_0_n_n none (truncf .bf16 (shapeCast S512x256 t shapeCasts_S1x512x256_S512x256) bitsLt_bf16_f32) (truncf .bf16 wq bitsLt_bf16_f32) (constant S512x256 .f32 0x00000000#32))
      (broadcastTo S512x256 (shapeCast S1x256 bq shapeCasts_S256_S1x256) broadcasts_S1x256_S512x256))
    (broadcast S512x256 (Scalar.ofBits .f32 0x3D800000#32))

/-- The scores of the tile's rows against every key. -/
def sc : FVec Ideal S512x4096 .f32 :=
  matmul dot_S512x256_S4096x256_S512x4096_1_1_0_0_n_n none (truncf .bf16 (qs t wq bq) bitsLt_bf16_f32) K (constant S512x4096 .f32 0x00000000#32)

/-- Each row's maximal score. -/
def mx : FVec Ideal S512 .f32 :=
  multiReduction .maximumf [1] S512 (sc t wq bq K) 0xFF800000#32 reduces_S512x4096_S512 (.inl rfl) rfl

/-- The exponentials of the scores less their row's maximum. -/
def ex : FVec Ideal S512x4096 .f32 :=
  exp (subf (sc t wq bq K) (broadcastTo S512x4096 (shapeCast S512x1 (mx t wq bq K) shapeCasts_S512_S512x1) broadcasts_S512x1_S512x4096))

/-- Each row's sum of exponentials. -/
def sm : FVec Ideal S512 .f32 :=
  multiReduction .add [1] S512 (ex t wq bq K) 0x00000000#32 reduces_S512x4096_S512 (.inl rfl) rfl

/-- The payload is these stages followed by the product with the values, the quotient and the residual. -/
theorem pay5_stages : k0_pay5 (F := Ideal) t wq bq K V
    = addf (divf (matmul dot_S512x4096_S4096x256_S512x256_1_0_0_1_n_n none (truncf .bf16 (ex t wq bq K) bitsLt_bf16_f32) V (constant S512x256 .f32 0x00000000#32))
          (broadcastTo S512x256 (shapeCast S512x1 (sm t wq bq K) shapeCasts_S512_S512x1) broadcasts_S512x1_S512x256))
        (shapeCast S512x256 t shapeCasts_S1x512x256_S512x256) := rfl

theorem qs_apply (r : Fin 512) (d : Fin 256) :
    qs t wq bq (ix2 r d) = ((∑ e : Fin 256, t (ix3 (0 : Fin 1) r e) * wq (ix2 d e)) + bq (ix1 d)) * Cert.Attention.scale := by
  unfold qs
  show (FloatOps.matmul (F := Ideal) dot_S512x256_S256x256_S512x256_1_1_0_0_n_n none _ _ _ (ix2 r d) + broadcastTo S512x256 _ _ (ix2 r d)) * Ideal.ofBits .f32 0x3D800000#32 = _
  rw [Cert.Lib.matmul_zero_rows_rows dot_S512x256_S256x256_S512x256_1_1_0_0_n_n rfl rfl dQ_l0 dQ_l1 dQ_r0 dQ_r1, broadcastTo_1b_ab_apply, shapeCast_a_1a_apply]
  refine congrArg (· * _) (congrArg (· + _) (Finset.sum_congr rfl fun e _ => ?_))
  show shapeCast S512x256 t _ (ix2 r e) * wq (ix2 d e) = _
  rw [shapeCast_1ab_ab_apply]

theorem sc_apply (r : Fin 512) (j : Fin 4096) :
    sc t wq bq K (ix2 r j) = ∑ d : Fin 256, qs t wq bq (ix2 r d) * K (ix2 j d) := by
  unfold sc
  show FloatOps.matmul (F := Ideal) dot_S512x256_S4096x256_S512x4096_1_1_0_0_n_n none _ _ _ (ix2 r j) = _
  rw [Cert.Lib.matmul_zero_rows_rows dot_S512x256_S4096x256_S512x4096_1_1_0_0_n_n rfl rfl dS_l0 dS_l1 dS_r0 dS_r1]
  rfl

theorem mx_apply (r : Fin 512) :
    mx t wq bq K (ix1 r) = (Finset.univ : Finset (Fin 4096)).fold max Cert.Attention.negInf (fun j => sc t wq bq K (ix2 r j)) := by
  unfold mx
  refine (Ideal.multiReduction_maximumf_single (sc t wq bq K) 0xFF800000#32 reduces_S512x4096_S512 (.inl rfl) rfl (ix1 r)).trans ?_
  refine congrArg (fun f => (Finset.univ : Finset (Fin 4096)).fold max Cert.Attention.negInf f) (funext fun j => ?_)
  exact congrArg (sc t wq bq K) (lift_row r j)

theorem ex_apply (r : Fin 512) (j : Fin 4096) :
    ex t wq bq K (ix2 r j) = Ideal.exp (sc t wq bq K (ix2 r j) - mx t wq bq K (ix1 r)) := by
  unfold ex
  show Ideal.exp (sc t wq bq K (ix2 r j) - broadcastTo S512x4096 _ _ (ix2 r j)) = _
  rw [Cert.Lib.broadcastTo_a1_ab_apply, Cert.Lib.shapeCast_a_a1_apply]

theorem sm_apply (r : Fin 512) :
    sm t wq bq K (ix1 r) = ∑ j : Fin 4096, ex t wq bq K (ix2 r j) := by
  unfold sm
  refine (Ideal.multiReduction_add_single (ex t wq bq K) 0x00000000#32 reduces_S512x4096_S512 (.inl rfl) rfl (ix1 r)).trans ?_
  exact Finset.sum_congr rfl fun j _ => congrArg (ex t wq bq K) (lift_row r j)

theorem out_apply (r : Fin 512) (e : Fin 256) :
    k0_pay5 (F := Ideal) t wq bq K V (ix2 r e)
      = Ideal.div (∑ j : Fin 4096, ex t wq bq K (ix2 r j) * V (ix2 j e)) (sm t wq bq K (ix1 r)) + t (ix3 (0 : Fin 1) r e) := by
  rw [pay5_stages]
  show Ideal.div (FloatOps.matmul (F := Ideal) (Cert.Lib.plainDot 512 4096 256 dot_S512x4096_S4096x256_S512x256_1_0_0_1_n_n_wf) none _ _ _ (ix2 r e)) (broadcastTo S512x256 _ _ (ix2 r e))
    + shapeCast S512x256 t _ (ix2 r e) = _
  rw [Cert.Lib.matmul_zero_apply, Cert.Lib.broadcastTo_a1_ab_apply, Cert.Lib.shapeCast_a_a1_apply, shapeCast_1ab_ab_apply]
  rfl

/-- THE OUTPUT TILE, entry (r, e): attention in the deferred arrangement of the tile's row r against the keys K
    and column e of the values V, plus the residual. -/
theorem pay5_apply (r : Fin 512) (e : Fin 256) :
    k0_pay5 (F := Ideal) t wq bq K V (ix2 r e)
      = Cert.Attention.rowDeferred (fun d : Fin 256 => (∑ e' : Fin 256, t (ix3 (0 : Fin 1) r e') * wq (ix2 d e')) + bq (ix1 d))
          (fun (j : Fin 4096) (d : Fin 256) => K (ix2 j d)) (fun j : Fin 4096 => V (ix2 j e)) (t (ix3 (0 : Fin 1) r e)) := by
  rw [out_apply]
  unfold Cert.Attention.rowDeferred
  simp only [sm_apply, ex_apply, mx_apply, sc_apply, qs_apply]

end Stages

end Cert.KernelIdeal.Payloads

end
-- ==== Proof.KernelBlocks.lean ====
/-
  The kernel's blocks read off the arrays. At grid point t (batch t / 8, query tile t % 8) the window of the
  activations holds the batch's whole [4096, 256] slab, each weight's and bias's window holds the whole array,
  the query tile is rows 512·(t % 8) … 512·(t % 8) + 511 of the slab, and the output window's block is the same
  rows of the result array; the 64 output blocks cover the result array.
-/
import proofs.«107308_j35098472743342_2_alg».proof.Proof.Gen.KernelIdeal.Frame
import proofs.«107308_j35098472743342_2_alg».proof.Proof.KernelPieces
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F] (m : (ℓ : Loc nD τ sig) → Buf (Elt F) ℓ)

/-- The grid has 64 points. -/
theorem lt64 (t : Fin cfg0.N) : t.val < 64 := lt_of_lt_of_eq t.isLt N_0

/-- The batch of grid point `t`. -/
abbrev bOf (t : Fin cfg0.N) : Fin 8 := ⟨t.val / 8, by have := lt64 t; omega⟩
/-- Row `r` of grid point `t`'s query tile, as a row of the batch's slab. -/
abbrev rowOf (t : Fin cfg0.N) (r : Fin 512) : Fin 4096 := ⟨512 * (t.val % 8) + r.val, by have := r.isLt; omega⟩

/-! ## The activations' window -/

/-- Its block index at point `t` is (t / 8, 0, 0). -/
theorem idx0 : ∀ t : Fin cfg0.N, win0_0.index t (0 : Fin 3) = t.val / 8 ∧ win0_0.index t (1 : Fin 3) = 0 ∧ win0_0.index t (2 : Fin 3) = 0 :=
  (by decide +kernel : ∀ t : Fin grid0.N, _)

/-- The activations' block at point `t` is batch t / 8 of the array. -/
theorem x_block (c : Dev nD) (t : Fin cfg0.N) (j : Fin 4096) (e : Fin 256) :
    (iblk m c 0 t : Vec F S1x4096x256 .f32) (ix3 (0 : Fin 1) j e) = m ((c : Thread nD τ).loc main_arg0) (ix3 (bOf t) j e) := by
  obtain ⟨h0, h1, h2⟩ := idx0 t
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * 0 = t.val / 8; rw [h0]; omega
  | ⟨1, _⟩ => show win0_0.index t (1 : Fin 3) * 4096 + 1 * j.val = j.val; rw [h1]; omega
  | ⟨2, _⟩ => show win0_0.index t (2 : Fin 3) * 256 + 1 * e.val = e.val; rw [h2]; omega

/-! ## The weights' and biases' windows -/

/-- The query weight's window has block index (0, 0) at every point. -/
theorem idx1 : ∀ t : Fin cfg0.N, win0_1.index t (0 : Fin 2) = 0 ∧ win0_1.index t (1 : Fin 2) = 0 :=
  (by decide +kernel : ∀ t : Fin grid0.N, _)

/-- At every point that window's block is the whole array. -/
theorem wq_block (c : Dev nD) (t : Fin cfg0.N) :
    (iblk m c 1 t : Vec F S256x256 .f32) = m ((c : Thread nD τ).loc main_arg1) := by
  obtain ⟨h0, h1⟩ := idx1 t
  funext j
  unfold iblk
  rw [View.read_apply]
  show V m c main_arg1 _ = m (c.tc.loc main_arg1) _
  unfold V
  congr 1
  funext a
  apply Fin.ext
  match a with
  | ⟨0, _⟩ => show win0_1.index t (0 : Fin 2) * 256 + 1 * (j 0).val = (j 0).val; rw [h0]; omega
  | ⟨1, _⟩ => show win0_1.index t (1 : Fin 2) * 256 + 1 * (j 1).val = (j 1).val; rw [h1]; omega

/-- The query bias's window has block index 0 at every point. -/
theorem idx2 : ∀ t : Fin cfg0.N, win0_2.index t (0 : Fin 1) = 0 :=
  (by decide +kernel : ∀ t : Fin grid0.N, _)

/-- At every point that window's block is the whole array. -/
theorem bq_block (c : Dev nD) (t : Fin cfg0.N) :
    (iblk m c 2 t : Vec F S256 .f32) = m ((c : Thread nD τ).loc main_arg2) := by
  have h0 := idx2 t
  funext j
  unfold iblk
  rw [View.read_apply]
  show V m c main_arg2 _ = m (c.tc.loc main_arg2) _
  unfold V
  congr 1
  funext a
  apply Fin.ext
  match a with
  | ⟨0, _⟩ => show win0_2.index t (0 : Fin 1) * 256 + 1 * (j 0).val = (j 0).val; rw [h0]; omega

/-- The key weight's window has block index (0, 0) at every point. -/
theorem idx3 : ∀ t : Fin cfg0.N, win0_3.index t (0 : Fin 2) = 0 ∧ win0_3.index t (1 : Fin 2) = 0 :=
  (by decide +kernel : ∀ t : Fin grid0.N, _)

/-- At every point that window's block is the whole array. -/
theorem wk_block (c : Dev nD) (t : Fin cfg0.N) :
    (iblk m c 3 t : Vec F S256x256 .f32) = m ((c : Thread nD τ).loc main_arg3) := by
  obtain ⟨h0, h1⟩ := idx3 t
  funext j
  unfold iblk
  rw [View.read_apply]
  show V m c main_arg3 _ = m (c.tc.loc main_arg3) _
  unfold V
  congr 1
  funext a
  apply Fin.ext
  match a with
  | ⟨0, _⟩ => show win0_3.index t (0 : Fin 2) * 256 + 1 * (j 0).val = (j 0).val; rw [h0]; omega
  | ⟨1, _⟩ => show win0_3.index t (1 : Fin 2) * 256 + 1 * (j 1).val = (j 1).val; rw [h1]; omega

/-- The key bias's window has block index 0 at every point. -/
theorem idx4 : ∀ t : Fin cfg0.N, win0_4.index t (0 : Fin 1) = 0 :=
  (by decide +kernel : ∀ t : Fin grid0.N, _)

/-- At every point that window's block is the whole array. -/
theorem bk_block (c : Dev nD) (t : Fin cfg0.N) :
    (iblk m c 4 t : Vec F S256 .f32) = m ((c : Thread nD τ).loc main_arg4) := by
  have h0 := idx4 t
  funext j
  unfold iblk
  rw [View.read_apply]
  show V m c main_arg4 _ = m (c.tc.loc main_arg4) _
  unfold V
  congr 1
  funext a
  apply Fin.ext
  match a with
  | ⟨0, _⟩ => show win0_4.index t (0 : Fin 1) * 256 + 1 * (j 0).val = (j 0).val; rw [h0]; omega

/-- The value weight's window has block index (0, 0) at every point. -/
theorem idx5 : ∀ t : Fin cfg0.N, win0_5.index t (0 : Fin 2) = 0 ∧ win0_5.index t (1 : Fin 2) = 0 :=
  (by decide +kernel : ∀ t : Fin grid0.N, _)

/-- At every point that window's block is the whole array. -/
theorem wv_block (c : Dev nD) (t : Fin cfg0.N) :
    (iblk m c 5 t : Vec F S256x256 .f32) = m ((c : Thread nD τ).loc main_arg5) := by
  obtain ⟨h0, h1⟩ := idx5 t
  funext j
  unfold iblk
  rw [View.read_apply]
  show V m c main_arg5 _ = m (c.tc.loc main_arg5) _
  unfold V
  congr 1
  funext a
  apply Fin.ext
  match a with
  | ⟨0, _⟩ => show win0_5.index t (0 : Fin 2) * 256 + 1 * (j 0).val = (j 0).val; rw [h0]; omega
  | ⟨1, _⟩ => show win0_5.index t (1 : Fin 2) * 256 + 1 * (j 1).val = (j 1).val; rw [h1]; omega

/-- The value bias's window has block index 0 at every point. -/
theorem idx6 : ∀ t : Fin cfg0.N, win0_6.index t (0 : Fin 1) = 0 :=
  (by decide +kernel : ∀ t : Fin grid0.N, _)

/-- At every point that window's block is the whole array. -/
theorem bv_block (c : Dev nD) (t : Fin cfg0.N) :
    (iblk m c 6 t : Vec F S256 .f32) = m ((c : Thread nD τ).loc main_arg6) := by
  have h0 := idx6 t
  funext j
  unfold iblk
  rw [View.read_apply]
  show V m c main_arg6 _ = m (c.tc.loc main_arg6) _
  unfold V
  congr 1
  funext a
  apply Fin.ext
  match a with
  | ⟨0, _⟩ => show win0_6.index t (0 : Fin 1) * 256 + 1 * (j 0).val = (j 0).val; rw [h0]; omega

/-! ## The query tile -/

/-- The grid point's coordinates are (t / 8, t % 8). -/
theorem coords_val : ∀ t : Fin cfg0.N, (grid0.coords t 0).val = t.val / 8 ∧ (grid0.coords t 1).val = t.val % 8 :=
  (by decide +kernel : ∀ t : Fin grid0.N, _)

/-- Row `r` of the query tile at point `t` is row 512·(t % 8) + r of the batch. -/
theorem tile_apply (c : Dev nD) (t : Fin cfg0.N) (r : Fin 512) (e : Fin 256) :
    Cert.KernelIdeal.Pieces.tile (grid0.coords t) (iblk m c 0 t) (ix3 (0 : Fin 1) r e)
      = m ((c : Thread nD τ).loc main_arg0) (ix3 (bOf t) (rowOf t r) e) := by
  have hk := k0_off1_eq (grid0.coords t)
  have hc := (coords_val t).2
  have hidx : (Rect.unit (s := S1x4096x256) (k0_off1 (grid0.coords t)) S1x512x256.size (k0_off1_inb (grid0.coords t))).idx
      (ix3 (0 : Fin 1) r e) = ix3 (0 : Fin 1) (rowOf t r) e := by
    funext a
    apply Fin.ext
    match a with
    | ⟨0, _⟩ => show k0_off1 (grid0.coords t) 0 + 1 * 0 = 0; rw [hk]; rfl
    | ⟨1, _⟩ => show k0_off1 (grid0.coords t) 1 + 1 * r.val = 512 * (t.val % 8) + r.val; rw [hk]; show 512 * (grid0.coords t 1).val + 1 * r.val = _; rw [hc]; omega
    | ⟨2, _⟩ => show k0_off1 (grid0.coords t) 2 + 1 * e.val = e.val; rw [hk]; show 0 + 1 * e.val = e.val; omega
  show (iblk m c 0 t : Vec F S1x4096x256 .f32) ((Rect.unit (s := S1x4096x256) (k0_off1 (grid0.coords t)) S1x512x256.size (k0_off1_inb (grid0.coords t))).idx (ix3 (0 : Fin 1) r e)) = _
  rw [hidx, x_block]

/-! ## The output window -/

/-- Its block index at point `t` is (t / 8, t % 8, 0). -/
theorem idx7 : ∀ t : Fin cfg0.N, win0_7.index t (0 : Fin 3) = t.val / 8 ∧ win0_7.index t (1 : Fin 3) = t.val % 8 ∧ win0_7.index t (2 : Fin 3) = 0 :=
  (by decide +kernel : ∀ t : Fin grid0.N, _)

/-- The output block at point `t`, read off contents `G` of the result array: rows 512·(t % 8) + r of batch t / 8. -/
theorem out_block (c : Dev nD) (t : Fin cfg0.N) (G : S8x4096x256.Idx → Elt F .f32) (r : Fin 512) (e : Fin 256) :
    ((cfg0.win 7).blk t).view.read (Elt F) G (ix3 (0 : Fin 1) r e) = G (ix3 (bOf t) (rowOf t r) e) := by
  obtain ⟨h0, h1, h2⟩ := idx7 t
  rw [View.read_apply]
  show G _ = G _
  congr 1
  funext a
  apply Fin.ext
  match a with
  | ⟨0, _⟩ => show win0_7.index t (0 : Fin 3) * 1 + 1 * 0 = t.val / 8; rw [h0]; omega
  | ⟨1, _⟩ => show win0_7.index t (1 : Fin 3) * 512 + 1 * r.val = 512 * (t.val % 8) + r.val; rw [h1]; omega
  | ⟨2, _⟩ => show win0_7.index t (2 : Fin 3) * 256 + 1 * e.val = e.val; rw [h2]; omega

/-- Every index of the result array lies in the output block of the point 8·batch + row / 512, which is written back. -/
theorem cover7 (i : S8x4096x256.Idx) : ∃ t : Fin cfg0.N, (cfg0.win 7).flush t = true ∧ i ∈ ((cfg0.win 7).blk t).view.set := by
  have hb : (i 0).val < 8 := (i 0).isLt
  have hs : (i 1).val < 4096 := (i 1).isLt
  have he : (i 2).val < 256 := (i 2).isLt
  obtain ⟨t, ht⟩ : ∃ t : Fin cfg0.N, t.val = 8 * (i 0).val + (i 1).val / 512 :=
    ⟨⟨8 * (i 0).val + (i 1).val / 512, lt_of_lt_of_eq (b := 64) (by omega) N_0.symm⟩, rfl⟩
  obtain ⟨h0, h1, h2⟩ := idx7 t
  refine ⟨t, flush0_7 t, ?_⟩
  show i ∈ ((View.whole main_v0).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + 1; rw [h0]; omega
  | ⟨1, _⟩ => show win0_7.index t (1 : Fin 3) * 512 ≤ (i 1).val ∧ (i 1).val < win0_7.index t (1 : Fin 3) * 512 + 512; rw [h1]; omega
  | ⟨2, _⟩ => show win0_7.index t (2 : Fin 3) * 256 ≤ (i 2).val ∧ (i 2).val < win0_7.index t (2 : Fin 3) * 256 + 256; rw [h2]; omega

/-! ## Inside a batch the activations' block does not move -/

/-- The point before one that is not a batch's first is in the same batch. -/
theorem same_batch (t : Fin cfg0.N) (h : ¬ t.val % 8 = 0) :
    bOf ⟨t.val - 1, Nat.lt_of_le_of_lt (Nat.sub_le _ _) t.isLt⟩ = bOf t := by
  apply Fin.ext
  show (t.val - 1) / 8 = t.val / 8
  omega

/-- So the activations' block there is the same. -/
theorem x_block_prev (c : Dev nD) (t : Fin cfg0.N) (h : ¬ t.val % 8 = 0) :
    (iblk m c 0 ⟨t.val - 1, Nat.lt_of_le_of_lt (Nat.sub_le _ _) t.isLt⟩ : Vec F S1x4096x256 .f32) = iblk m c 0 t := by
  funext i
  obtain ⟨z, j, e, rfl⟩ : ∃ (z : Fin 1) (j : Fin 4096) (e : Fin 256), i = ix3 z j e := ⟨i 0, i 1, i 2, eq_ix3 i⟩
  obtain rfl : z = 0 := Subsingleton.elim _ _
  rw [x_block, x_block, same_batch t h]

end Cert.KernelIdeal.Blocks

end
-- ==== Proof.KernelValue.lean ====
/-
  The kernel's result array, read back as one function of the argument arrays.

  Across the grid the body runs once per (batch, query tile). The two scratch buffers are written at a batch's
  first tile and only read afterwards, and the x block the body sees does not change within a batch; so after
  EVERY point they hold the keys and values of that point's own x block (induction on the point). Hence every
  point writes back the same function of the arguments — attention in the deferred arrangement of its 512 rows
  against its batch — and the blocks written back tile the result array.
-/
import proofs.«107308_j35098472743342_2_alg».proof.Proof.Gen.KernelIdeal.Value
import proofs.«107308_j35098472743342_2_alg».proof.Proof.KernelPieces
import proofs.«107308_j35098472743342_2_alg».proof.Proof.KernelPayloads
import proofs.«107308_j35098472743342_2_alg».proof.Proof.KernelBlocks
import proofs.«107308_j35098472743342_2_alg».proof.Proof.Attention
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Pieces Cert.KernelIdeal.Payloads Cert.KernelIdeal.Blocks

section AnyValues

variable {F : FTy → Type} [FloatOps F]
variable (m : (ℓ : Loc nD τ sig) → Buf (Elt F) ℓ)

/-- The x block, and the six weight and bias blocks, are the same at a point and at the point before it in the
    same batch. -/
theorem keys_prev (c : Dev nD) (n : ℕ) (h : n + 1 < cfg0.N) (h0 : ¬(n + 1) % 8 = 0) :
    k0_pay3 (iblk m c 0 ⟨n, Nat.lt_of_succ_lt h⟩) (iblk m c 3 ⟨n, Nat.lt_of_succ_lt h⟩) (iblk m c 4 ⟨n, Nat.lt_of_succ_lt h⟩)
      = k0_pay3 (iblk m c 0 ⟨n + 1, h⟩) (iblk m c 3 ⟨n + 1, h⟩) (iblk m c 4 ⟨n + 1, h⟩) := by
  have hx : (iblk m c 0 ⟨n, Nat.lt_of_succ_lt h⟩ : Vec F S1x4096x256 .f32) = iblk m c 0 ⟨n + 1, h⟩ := x_block_prev m c ⟨n + 1, h⟩ h0
  have hw : (iblk m c 3 ⟨n, Nat.lt_of_succ_lt h⟩ : Vec F S256x256 .f32) = iblk m c 3 ⟨n + 1, h⟩ := (wk_block m c _).trans (wk_block m c _).symm
  have hb : (iblk m c 4 ⟨n, Nat.lt_of_succ_lt h⟩ : Vec F S256 .f32) = iblk m c 4 ⟨n + 1, h⟩ := (bk_block m c _).trans (bk_block m c _).symm
  rw [hx, hw, hb]

theorem values_prev (c : Dev nD) (n : ℕ) (h : n + 1 < cfg0.N) (h0 : ¬(n + 1) % 8 = 0) :
    k0_pay4 (iblk m c 0 ⟨n, Nat.lt_of_succ_lt h⟩) (iblk m c 5 ⟨n, Nat.lt_of_succ_lt h⟩) (iblk m c 6 ⟨n, Nat.lt_of_succ_lt h⟩)
      = k0_pay4 (iblk m c 0 ⟨n + 1, h⟩) (iblk m c 5 ⟨n + 1, h⟩) (iblk m c 6 ⟨n + 1, h⟩) := by
  have hx : (iblk m c 0 ⟨n, Nat.lt_of_succ_lt h⟩ : Vec F S1x4096x256 .f32) = iblk m c 0 ⟨n + 1, h⟩ := x_block_prev m c ⟨n + 1, h⟩ h0
  have hw : (iblk m c 5 ⟨n, Nat.lt_of_succ_lt h⟩ : Vec F S256x256 .f32) = iblk m c 5 ⟨n + 1, h⟩ := (wv_block m c _).trans (wv_block m c _).symm
  have hb : (iblk m c 6 ⟨n, Nat.lt_of_succ_lt h⟩ : Vec F S256 .f32) = iblk m c 6 ⟨n + 1, h⟩ := (bv_block m c _).trans (bv_block m c _).symm
  rw [hx, hw, hb]

/-- AFTER EVERY POINT the scratch buffers hold the keys and the values of that point's x block. -/
theorem scratch_eq (c : Dev nD) : ∀ (n : ℕ) (h : n < cfg0.N),
    (outsAt0 m c n h).2.1 = k0_pay3 (iblk m c 0 ⟨n, h⟩) (iblk m c 3 ⟨n, h⟩) (iblk m c 4 ⟨n, h⟩)
      ∧ (outsAt0 m c n h).2.2 = k0_pay4 (iblk m c 0 ⟨n, h⟩) (iblk m c 5 ⟨n, h⟩) (iblk m c 6 ⟨n, h⟩)
  | 0, h => by
    rw [outsAt0_A m c ⟨0, h⟩ rfl]
    dsimp only
    exact ⟨keys_A (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩),
      values_A (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩)⟩
  | n + 1, h => by
    by_cases h0 : (n + 1) % 8 = 0
    · rw [outsAt0_A m c ⟨n + 1, h⟩ h0]
      dsimp only
      exact ⟨keys_A (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩),
        values_A (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩)⟩
    · rw [outsAt0_B m c ⟨n + 1, h⟩ h0]
      dsimp only [sout0_B_0, sout0_B_1]
      obtain ⟨ihK, ihV⟩ := scratch_eq c n (Nat.lt_of_succ_lt h)
      refine ⟨?_, ?_⟩
      · show (outsAt0 m c n _).2.1 = _
        exact ihK.trans (keys_prev m c n h h0)
      · show (outsAt0 m c n _).2.2 = _
        exact ihV.trans (values_prev m c n h h0)

/-- EVERY POINT'S OUTPUT TILE: attention of the point's query tile against the keys and values of its x block. -/
theorem out_eq (c : Dev nD) (t : Fin cfg0.N) :
    (outsAt0 m c t.val t.isLt).1
      = k0_pay1 (k0_pay5 (tile (grid0.coords t) (iblk m c 0 t)) (iblk m c 1 t) (iblk m c 2 t)
          (k0_pay3 (iblk m c 0 t) (iblk m c 3 t) (iblk m c 4 t)) (k0_pay4 (iblk m c 0 t) (iblk m c 5 t) (iblk m c 6 t))) := by
  by_cases h0 : t.val % 8 = 0
  · rw [outsAt0_A m c t h0]
    dsimp only
    exact out_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)
  · rw [outsAt0_B m c t h0]
    dsimp only
    refine (out_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hh => h0 ((hcond0_0 t).mp hh)) (iblk m c 0 t) (iblk m c 1 t) (iblk m c 2 t) (iblk m c 3 t) (iblk m c 4 t) (iblk m c 5 t) (iblk m c 6 t)
      (outsAt0 m c (t.val - 1) (Nat.lt_of_le_of_lt (Nat.sub_le _ _) t.isLt)).2.1 (outsAt0 m c (t.val - 1) (Nat.lt_of_le_of_lt (Nat.sub_le _ _) t.isLt)).2.2).trans ?_
    obtain ⟨n, hn⟩ := t
    cases n with
    | zero => exact absurd (Nat.zero_mod _) h0
    | succ n =>
      obtain ⟨ihK, ihV⟩ := scratch_eq m c n (Nat.lt_of_succ_lt hn)
      show k0_pay1 (k0_pay5 _ _ _ (outsAt0 m c n _).2.1 (outsAt0 m c n _).2.2) = _
      rw [ihK, ihV, keys_prev m c n hn h0, values_prev m c n hn h0]

end AnyValues

/-! ## Over the extended reals -/

section AtIdeal

variable (m : (ℓ : Loc nD τ sig) → Buf (Elt Ideal) ℓ) (ρ : Dev nD → PrngReg)

/-- What the result array ends holding: attention in the deferred arrangement of the argument arrays. -/
def result (c : Dev nD) : Buf (Elt Ideal) ((c : Thread nD τ).loc main_v0) := fun i =>
  Cert.Attention.outDeferred (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (i 0) (i 1) (i 2)

/-- The keys of a point's x block are the key layer of the point's batch. -/
theorem keys_entry (c : Dev nD) (t : Fin cfg0.N) (j : Fin 4096) (d : Fin 256) :
    k0_pay3 (F := Ideal) (iblk m c 0 t) (iblk m c 3 t) (iblk m c 4 t) (ix2 j d)
      = Cert.Attention.lin (m ((c : Thread nD τ).loc main_arg0)) (m ((c : Thread nD τ).loc main_arg3)) (m ((c : Thread nD τ).loc main_arg4)) (bOf t) j d := by
  refine (keys_apply (iblk m c 0 t) (iblk m c 3 t) (iblk m c 4 t) j d).trans ?_
  unfold Cert.Attention.lin
  rw [wk_block m c t, bk_block m c t]
  exact congrArg (· + _) (Finset.sum_congr rfl fun e _ => congrArg (· * _) (x_block m c t j e))

theorem values_entry (c : Dev nD) (t : Fin cfg0.N) (j : Fin 4096) (d : Fin 256) :
    k0_pay4 (F := Ideal) (iblk m c 0 t) (iblk m c 5 t) (iblk m c 6 t) (ix2 j d)
      = Cert.Attention.lin (m ((c : Thread nD τ).loc main_arg0)) (m ((c : Thread nD τ).loc main_arg5)) (m ((c : Thread nD τ).loc main_arg6)) (bOf t) j d := by
  refine (values_apply (iblk m c 0 t) (iblk m c 5 t) (iblk m c 6 t) j d).trans ?_
  unfold Cert.Attention.lin
  rw [wv_block m c t, bv_block m c t]
  exact congrArg (· + _) (Finset.sum_congr rfl fun e _ => congrArg (· * _) (x_block m c t j e))

/-- The query layer of the point's tile. -/
theorem query_entry (c : Dev nD) (t : Fin cfg0.N) (r : Fin 512) (d : Fin 256) :
    (∑ e' : Fin 256, tile (grid0.coords t) (iblk m c 0 t) (ix3 (0 : Fin 1) r e') * (iblk m c 1 t : Vec Ideal S256x256 .f32) (ix2 d e'))
        + (iblk m c 2 t : Vec Ideal S256 .f32) (ix1 d)
      = Cert.Attention.lin (m ((c : Thread nD τ).loc main_arg0)) (m ((c : Thread nD τ).loc main_arg1)) (m ((c : Thread nD τ).loc main_arg2)) (bOf t) (rowOf t r) d := by
  unfold Cert.Attention.lin
  rw [wq_block m c t, bq_block m c t]
  exact congrArg (· + _) (Finset.sum_congr rfl fun e _ => congrArg (· * _) (tile_apply m c t r e))

/-- ENTRY (r, e) OF POINT t'S OUTPUT TILE is the result at batch t / 8, row 512 (t mod 8) + r, feature e. -/
theorem tile_entry (c : Dev nD) (t : Fin cfg0.N) (r : Fin 512) (e : Fin 256) :
    (outsAt0 m c t.val t.isLt).1 (ix3 (0 : Fin 1) r e) = result m c (ix3 (bOf t) (rowOf t r) e) := by
  rw [out_eq]
  refine (pay1_apply _ (0 : Fin 1) r e).trans ?_
  refine (pay5_apply _ _ _ _ _ r e).trans ?_
  show _ = Cert.Attention.outDeferred _ _ _ _ _ _ _ (bOf t) (rowOf t r) e
  unfold Cert.Attention.outDeferred
  simp only [keys_entry, values_entry]
  rw [tile_apply]
  exact congrArg (fun q => Cert.Attention.rowDeferred q _ _ _) (funext fun d => query_entry m c t r d)

/-- What point t writes back is block t of the result. -/
theorem flushed_eq (c : Dev nD) (t : Fin cfg0.N) :
    (dats m 0 c).flushed 7 t = ((cfg0.win 7).blk t).view.read (Elt Ideal) (result m c) := by
  rw [Cert.KernelIdeal.Value.flushed7]
  funext y
  obtain ⟨u, r, e, rfl⟩ : ∃ (u : Fin 1) (r : Fin 512) (e : Fin 256), y = ix3 u r e := ⟨y 0, y 1, y 2, eq_ix3 y⟩
  obtain rfl : u = 0 := Subsingleton.elim _ _
  show (outsAt0 m c t.val t.isLt).1 (ix3 (0 : Fin 1) r e) = _
  rw [tile_entry, out_block c]

/-- The blocks written back cover the result array, so it ends holding `result`. -/
theorem final (c : Dev nD) : (dats m 0 c).arrAt 7 cfg0.N = result m c :=
  (dats m 0 c).arrAt_eq_of_cover 7 (result m c) (fun t _ => flushed_eq m c t) cover7

/-- The run, read: the result array at `result`, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end AtIdeal

end Cert.KernelIdeal.Result

end
-- ==== Proof.lean ====
/-
  Single-head attention with a residual: a fused kernel against its plain reference, over the extended reals.

  Per batch, with q = x Wqᵀ + bq, k = x Wkᵀ + bk, v = x Wvᵀ + bv and c = 1/16 = 1/√256, the reference computes
  x + softmax((q kᵀ) c) v. The kernel runs once per (batch, tile of 512 query rows): at a batch's first tile it
  stores k and v, and at every tile it forms the scores ((q c) kᵀ) with the scale folded into the query, subtracts
  each row's maximum, exponentiates, multiplies into v, and divides by the row's sum of exponentials only at the
  end, adding x. Format changes are the identity on the extended reals and every product is a plain sum, so the
  two differ by exactly three laws: (q c)·k = (q·k) c, (Σ e_j v_j) / L = Σ (e_j / L) v_j, and a + x = x + a. The
  first two are distributivity, which the extended reals have only away from the infinities; the precondition —
  every input finite — makes q, k, v and the scores real, the row maximum real, the exponentials real and their
  sum L a positive real, and on reals the laws hold (Proof/AttentionLaw.lean).

  The claims: the kernel's two frames are the generated ones; the reference's frame is its generated run with the
  result dropped; the idealization rewrote nothing; and the two results are one function of the arguments — the
  kernel's result array read back block by block (Proof/KernelValue.lean), the reference's read operation by
  operation (Proof/ReferenceValue.lean), joined by the law under the decoded precondition
  (Proof/FiniteInputs.lean).
-/
import proofs.«107308_j35098472743342_2_alg».proof.Defs
import proofs.«107308_j35098472743342_2_alg».proof.Proof.Gen.Kernel
import proofs.«107308_j35098472743342_2_alg».proof.Proof.Gen.Kernel.Skeleton
import proofs.«107308_j35098472743342_2_alg».proof.Proof.Gen.Kernel.Launch
import proofs.«107308_j35098472743342_2_alg».proof.Proof.Gen.Kernel.Points
import proofs.«107308_j35098472743342_2_alg».proof.Proof.Gen.Kernel.Frame
import proofs.«107308_j35098472743342_2_alg».proof.Proof.Gen.KernelIdeal
import proofs.«107308_j35098472743342_2_alg».proof.Proof.Gen.KernelIdeal.Skeleton
import proofs.«107308_j35098472743342_2_alg».proof.Proof.Gen.KernelIdeal.Launch
import proofs.«107308_j35098472743342_2_alg».proof.Proof.Gen.KernelIdeal.Points
import proofs.«107308_j35098472743342_2_alg».proof.Proof.Gen.KernelIdeal.Frame
import proofs.«107308_j35098472743342_2_alg».proof.Proof.Gen.ReferenceIdeal
import proofs.«107308_j35098472743342_2_alg».proof.Proof.Gen.Pre_finite_inputs
import proofs.«107308_j35098472743342_2_alg».proof.Proof.Gen.KernelIdeal.Value
import proofs.«107308_j35098472743342_2_alg».proof.Proof.Gen.ReferenceIdeal.Run
import proofs.«107308_j35098472743342_2_alg».proof.Proof.Gen.ReferenceIdeal.Read
import proofs.«107308_j35098472743342_2_alg».proof.Proof.AttentionLaw
import proofs.«107308_j35098472743342_2_alg».proof.Proof.ReferenceValue
import proofs.«107308_j35098472743342_2_alg».proof.Proof.FiniteInputs
import proofs.«107308_j35098472743342_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result array ends at attention in the deferred arrangement of the
    arguments, the reference's at attention in the softmax arrangement of arguments that agree; finite arguments
    make the two one function. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  obtain ⟨f0, f1, f2, f3, f4, f5, f6⟩ := Cert.Finite.real_of_pre _ _ _ _ _ _ _ (hpre c)
  rw [Cert.ReferenceIdeal.Read.val_main_v27_eq, Cert.ReferenceIdeal.RefValue.reference_eq, a0, a1, a2, a3, a4, a5, a6]
  funext i
  exact (Cert.Attention.outDeferred_eq_outSoftmax _ _ _ _ _ _ _ f0 f1 f2 f3 f4 f5 f6 (i 0) (i 1) (i 2)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
